-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x784x784 : Shape := ⟨4, ![16, 12, 784, 784]⟩
abbrev S_ : Shape := ⟨0, ![]⟩

class Facts : Prop where
  bcast_S_S16x12x784x784 : S_.BroadcastsInDim S16x12x784x784 (![] : Fin 0 → Fin S16x12x784x784.rank)
  reducesTo_S16x12x784x784_S_d0_1_2_3 : S16x12x784x784.ReducesTo [0, 1, 2, 3] S_
  h_S_ : 0 < S_.numel

variable [Facts]

def fn {F : FTy → Type} [FloatOps F] (main_arg0 : FVec F S16x12x784x784 .f32) : IVec S_ 1 :=
  let main_v0 : FVec F S16x12x784x784 .f32 := Host.absf main_arg0
  let main_cst : FVec F S_ .f32 := constant S_ .f32 0x7F800000#32
  let main_v1 : FVec F S16x12x784x784 .f32 := broadcastInDim S16x12x784x784 ![] bcast_S_S16x12x784x784 main_cst
  let main_v2 : IVec S16x12x784x784 1 := cmpf .olt main_v0 main_v1
  let main_c : IVec S_ 1 := constantI S_ 1 1#1
  let main_v3 : IVec S_ 1 := (fun x v => Host.reduce IntOp.andi x v reducesTo_S16x12x784x784_S_d0_1_2_3 h_S_) main_v2 main_c
  main_v3
-- ==== Kernel.lean ====
abbrev S16x12x784x784 : Shape := ⟨4, ![16, 12, 784, 784]⟩
abbrev S16x784x784 : Shape := ⟨3, ![16, 784, 784]⟩
abbrev S1x12x112x784 : Shape := ⟨4, ![1, 12, 112, 784]⟩
abbrev S1x784x784 : Shape := ⟨3, ![1, 784, 784]⟩
abbrev S784x784 : Shape := ⟨2, ![784, 784]⟩
abbrev S112x784 : Shape := ⟨2, ![112, 784]⟩
abbrev S1x1x112x784 : Shape := ⟨4, ![1, 1, 112, 784]⟩
abbrev S112 : Shape := ⟨1, ![112]⟩
abbrev S112x1 : Shape := ⟨2, ![112, 1]⟩
abbrev S784 : Shape := ⟨1, ![784]⟩
abbrev S784x1 : Shape := ⟨2, ![784, 1]⟩
abbrev S1 : Shape := ⟨1, ![1]⟩
abbrev S1x1 : Shape := ⟨2, ![1, 1]⟩

abbrev nBuf : Space → Nat
  | .hbm => 2
  | .vmem => 5
  | .smem => 0
  | _ => 0

abbrev bufTy : (tb : Table) → Fin (tcTables nBuf tb) → BufTy
  | .hbm, ⟨0, _⟩ => ⟨S16x12x784x784, .f32⟩
  | .hbm, ⟨1, _⟩ => ⟨S16x784x784, .f32⟩
  | .local _ .vmem, ⟨0, _⟩ => ⟨S1x12x112x784, .f32⟩
  | .local _ .vmem, ⟨1, _⟩ => ⟨S1x12x112x784, .f32⟩
  | .local _ .vmem, ⟨2, _⟩ => ⟨S1x784x784, .f32⟩
  | .local _ .vmem, ⟨3, _⟩ => ⟨S1x784x784, .f32⟩
  | .local _ .vmem, ⟨4, _⟩ => ⟨S784x784, .f32⟩
  | _, _ => ⟨S16x12x784x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 7], ![false, false]⟩

@[reducible] def k0_t1_loop : Scf.Loop 32 :=
  let c0_i32 : BitVec 32 := 0#32
  let c12_i32 : BitVec 32 := 12#32
  let v1 : BitVec 32 := Scalar.addi c0_i32 c12_i32
  let c1_i32 : BitVec 32 := 1#32
  ⟨c0_i32, v1, c1_i32⟩
def k0_off1 (k0_t1 : Fin k0_t1_loop.trips) : Fin 4 → Nat :=
  let c0_2 : Index := 0#32
  let c0_i32 : BitVec 32 := 0#32
  let c1_i32 : BitVec 32 := 1#32
  let arg5 : BitVec 32 := Scf.iv c0_i32 c1_i32 k0_t1
  let v12 : Index := Scalar.indexCast arg5
  let c0_3 : Index := 0#32
  let c0_4 : Index := 0#32
  ![0, v12.toNat, 0, 0]
def k0_mult1 (i : grid0.Coords) : BitVec 32 :=
  let arg1 : BitVec 32 := BitVec.ofNat 32 (i 1).val
  let c112_i32 : BitVec 32 := 112#32
  let v3 : BitVec 32 := Scalar.muli arg1 c112_i32
  v3
def k0_off2 (i : grid0.Coords) : Fin 2 → Nat :=
  let arg1 : BitVec 32 := BitVec.ofNat 32 (i 1).val
  let c112_i32 : BitVec 32 := 112#32
  let v3 : BitVec 32 := Scalar.muli arg1 c112_i32
  let v4 : BitVec 32 := v3
  let v5 : Index := Scalar.indexCast v4
  let c0 : Index := 0#32
  ![v5.toNat, 0]
def k0_cond1 (i : grid0.Coords) : BitVec 1 :=
  let arg1 : BitVec 32 := BitVec.ofNat 32 (i 1).val
  let c6_i32 : BitVec 32 := 6#32
  let v9 : BitVec 1 := Scalar.cmpi .eq arg1 c6_i32
  let v10 : BitVec 32 := Scalar.extui v9
  let c0_i32_1 : BitVec 32 := 0#32
  let v11 : BitVec 1 := Scalar.cmpi .ne v10 c0_i32_1
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12x112x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x784x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  h_S1x1x112x784 : 0 < S1x1x112x784.numel
  shapeCasts_S1x1x112x784_S112x784 : S1x1x112x784.ShapeCasts S112x784
  reduces_S112x784_S112 : S112x784.Reduces [1] S112
  shapeCasts_S112_S112x1 : S112.ShapeCasts S112x1
  broadcasts_S112x1_S112x784 : S112x1.Broadcasts S112x784
  h_S112x784 : 0 < S112x784.numel
  shapeCasts_S112x784_S112x784 : S112x784.ShapeCasts S112x784
  inb_S784x784_S784x784_0_0 : ∀ a, (![0, 0] : Fin 2 → Nat) a + S784x784.size a ≤ S784x784.size a
  h_S784x784 : 0 < S784x784.numel
  reduces_S784x784_S784 : S784x784.Reduces [1] S784
  shapeCasts_S784_S784x1 : S784.ShapeCasts S784x1
  reduces_S784x1_S1 : S784x1.Reduces [0] S1
  shapeCasts_S1_S1x1 : S1.ShapeCasts S1x1
  broadcasts_S1x1_S784x784 : S1x1.Broadcasts S784x784
  inb_S1x784x784_S1x784x784_0_0_0 : ∀ a, (![0, 0, 0] : Fin 3 → Nat) a + S1x784x784.size a ≤ S1x784x784.size a
  h_S1x784x784 : 0 < S1x784x784.numel
  shapeCasts_S1x784x784_S784x784 : S1x784x784.ShapeCasts S784x784
  shapeCasts_S784x784_S1x784x784 : S784x784.ShapeCasts S1x784x784
  hrank0 : 0 < grid0.rank
  k0_t1_ok : k0_t1_loop.OK
  k0_off1_inb : ∀ k0_t1 : Fin k0_t1_loop.trips, ∀ a, (k0_off1 k0_t1) a + S1x1x112x784.size a ≤ S1x12x112x784.size a
  k0_mult1_dvd : ∀ i : grid0.Coords, 112 ∣ (k0_mult1 i).toNat
  k0_off2_inb : ∀ i : grid0.Coords, ∀ a, (k0_off2 i) a + S112x784.size a ≤ S784x784.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x112x784.size a ≤ S16x12x784x784.size a
  hwx0_0 : ∀ i : grid0.Coords, EltTy.bits .f32 = 32 ∨ (Rect.block (s := S16x12x784x784) S1x12x112x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x784x784.size a ≤ S16x784x784.size a
  hwx0_1 : ∀ i : grid0.Coords, EltTy.bits .f32 = 32 ∨ (Rect.block (s := S16x784x784) S1x784x784.size (cc0_transform_1 i) (hinb0_1 i)).WholeWords (EltTy.packing .f32)

variable [Facts₀]

abbrev win0_0 : Pipeline.Window sig grid0 :=
  Pipeline.Window.ofSpec (Memref.whole main_arg0) S1x12x112x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x784x784.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) | ⟨_ + 2, h⟩ => absurd h (Nat.not_lt.2 (Nat.le_add_left _ _))

class Facts : Prop extends Facts₀ where

variable [Facts]
-- ==== ReferenceIdeal.lean ====
abbrev S16x12x784x784 : Shape := ⟨4, ![16, 12, 784, 784]⟩
abbrev S_ : Shape := ⟨0, ![]⟩
abbrev S16x12x784 : Shape := ⟨3, ![16, 12, 784]⟩
abbrev S16x12x784x1 : Shape := ⟨4, ![16, 12, 784, 1]⟩
abbrev S16x784x784 : Shape := ⟨3, ![16, 784, 784]⟩
abbrev S16x614656 : Shape := ⟨2, ![16, 614656]⟩
abbrev S16 : Shape := ⟨1, ![16]⟩
abbrev S16x1 : Shape := ⟨2, ![16, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x12x784x784, .f32⟩
  | .hbm, ⟨1, _⟩ => ⟨S_, .f32⟩
  | .hbm, ⟨2, _⟩ => ⟨S16x12x784, .f32⟩
  | .hbm, ⟨3, _⟩ => ⟨S16x12x784x1, .f32⟩
  | .hbm, ⟨4, _⟩ => ⟨S16x12x784x784, .f32⟩
  | .hbm, ⟨5, _⟩ => ⟨S16x12x784x784, .f32⟩
  | .hbm, ⟨6, _⟩ => ⟨S_, .f32⟩
  | .hbm, ⟨7, _⟩ => ⟨S16x784x784, .f32⟩
  | .hbm, ⟨8, _⟩ => ⟨S16x614656, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16x1, .f32⟩
  | .hbm, ⟨15, _⟩ => ⟨S16x614656, .f32⟩
  | .hbm, ⟨16, _⟩ => ⟨S16x614656, .f32⟩
  | .hbm, ⟨17, _⟩ => ⟨S16x614656, .f32⟩
  | .hbm, ⟨18, _⟩ => ⟨S_, .f32⟩
  | .hbm, ⟨19, _⟩ => ⟨S16, .f32⟩
  | .hbm, ⟨20, _⟩ => ⟨S16x1, .f32⟩
  | .hbm, ⟨21, _⟩ => ⟨S16x614656, .f32⟩
  | .hbm, ⟨22, _⟩ => ⟨S16x614656, .f32⟩
  | .hbm, ⟨23, _⟩ => ⟨S16x784x784, .f32⟩
  | _, _ => ⟨S16x12x784x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S16x12x784x784_S16x12x784_d3 : S16x12x784x784.ReducesTo [3] S16x12x784
  h_S_ : 0 < S_.numel
  bcast_S16x12x784_S16x12x784x1_0_1_2 : S16x12x784.BroadcastsInDim S16x12x784x1 (![0, 1, 2] : Fin 3 → Fin S16x12x784x1.rank)
  bcast_S16x12x784x1_S16x12x784x784_0_1_2_3 : S16x12x784x1.BroadcastsInDim S16x12x784x784 (![0, 1, 2, 3] : Fin 4 → Fin S16x12x784x784.rank)
  reducesTo_S16x12x784x784_S16x784x784_d1 : S16x12x784x784.ReducesTo [1] S16x784x784
  shapeCasts_S16x784x784_S16x614656 : S16x784x784.ShapeCasts S16x614656
  reducesTo_S16x614656_S16_d1 : S16x614656.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x614656_0_1 : S16x1.BroadcastsInDim S16x614656 (![0, 1] : Fin 2 → Fin S16x614656.rank)
  shapeCasts_S16x614656_S16x784x784 : S16x614656.ShapeCasts S16x784x784

variable [Facts₀]

class Facts : Prop extends Facts₀ where

variable [Facts]
-- ==== Proof.BitsPoint.lean ====
/-
  The kernel's body at one grid point, on any staging memrefs.

  The grid is 16 batches by 7 row blocks, point t = 7·b + n. At every point the body sums, over the 12 heads, the
  head's 112×784 row block times its row sums (a counted loop carrying the partial sum), and stores the result into
  rows [112·n, 112·n + 112) of the 784×784 scratch. At the seventh block of a batch (n = 6) it then reads the whole
  scratch, takes the global maximum, exponentiates the differences, divides by their total, and stores that into the
  output's staging buffer. Two runs, one per case, each stating what every buffer holds afterwards as a function of
  what it held before.
-/
import proofs.«141324_j5093831213743_2_alg».proof.Proof.Gen.Kernel.Frame
import proofs.«141324_j5093831213743_2_alg».proof.Proof.Gen.Kernel.Launch
import proofs.«141324_j5093831213743_2_alg».proof.Proof.Gen.Kernel.Skeleton
import proofs.«141324_j5093831213743_2_alg».proof.Proof.Gen.Kernel.Loops
import proofs.«141324_j5093831213743_2_alg».proof.Proof.Gen.Kernel.Points
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the points fall -/

/-- The body's branch: the point is the seventh row block of its batch. -/
abbrev lastBlock (i : grid0.Coords) : Prop := k0_cond1 i = 1#1

/-- That is the points ≡ 6 (mod 7). -/
theorem lastBlock_iff : ∀ t : Fin cfg0.N, lastBlock (grid0.coords t) ↔ t.val % 7 = 6 :=
  (by decide +kernel : ∀ t : Fin grid0.N, lastBlock (grid0.coords t) ↔ t.val % 7 = 6)

/-- The input window is live at every point. -/
theorem in_live : ∀ t : Fin cfg0.N, cfg0.idle 0 (grid0.coords t) = false := by decide +kernel
/-- Before the seventh block the output window is idle -/
theorem out_idle : ∀ t : Fin cfg0.N, ¬lastBlock (grid0.coords t) → cfg0.idle 1 (grid0.coords t) = true := by decide +kernel
/-- and not written back; -/
theorem out_noFlush : ∀ t : Fin cfg0.N, ¬lastBlock (grid0.coords t) → (cfg0.win 1).flush t = false := by decide +kernel
/-- at the seventh block it is live. -/
theorem out_live : ∀ t : Fin cfg0.N, lastBlock (grid0.coords t) → cfg0.idle 1 (grid0.coords t) = false := by decide +kernel
/-- The scratch rows a point stores start at 112 times its row block. -/
theorem rowOffset : ∀ t : Fin cfg0.N, k0_off2 (grid0.coords t) = ![112 * (t.val % 7), 0] :=
  (by decide +kernel : ∀ t : Fin grid0.N, k0_off2 (grid0.coords t) = ![112 * (t.val % 7), 0])

/-! ## The memrefs the body is called with -/

abbrev inBuf (t : Fin cfg0.N) : Memref sig .tc .vmem S1x12x112x784 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S1x784x784 .f32 := win0_1.stage (cfg0.slots t 1)
abbrev outBuf_whole (t : Fin cfg0.N) : (outBuf t).IsWhole := hstage0_1 ((cfg0.slots t 1).cast nbuf0_1)
abbrev scratch : Memref sig .tc .vmem S784x784 .f32 := Memref.whole cc0_scratch0

/-- The region's plain invariant is the scratch at some contents and the generator register at some state. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## What one point computes and leaves -/

/-- The head loop's result from the staged input block `x0`: the sum over the heads of the head's rows times their
    row sums, as the loop carries it. -/
def headSum (c : Dev nD) (i : grid0.Coords) (arg2 : Memref sig .tc .vmem S1x12x112x784 .f32) (harg2 : arg2.IsWhole)
    (arg3 : Memref sig .tc .vmem S1x784x784 .f32) (harg3 : arg3.IsWhole) (arg4 : Memref sig .tc .vmem S784x784 .f32) (harg4 : arg4.IsWhole)
    (x0 : Vec F S1x12x112x784 .f32) : FVec F S112x784 .f32 :=
  k0_pay3 (st_k0_t1 Variants.none c none i arg2 harg2 arg3 harg3 arg4 harg4 (harg2.unread x0) k0_pay1
    (Scf.trips k0_t1_loop.lb k0_t1_loop.ub k0_t1_loop.st))

/-- The scratch after the point's store of `v` into its 112 rows, over prior contents `xs0`. -/
def scratchAfter (i : grid0.Coords) (arg4 : Memref sig .tc .vmem S784x784 .f32) (harg4 : arg4.IsWhole)
    (xs0 : Vec F S784x784 .f32) (v : FVec F S112x784 .f32) : Vec F S784x784 .f32 :=
  arg4.view.read (Elt F) (arg4.view.writes (Elt F) (harg4.unread xs0)
    [⟨Rect.unit (s := S784x784) (k0_off2 i) S112x784.size (k0_off2_inb i), v⟩])

/-- A store through the whole output block leaves its payload. -/
theorem read_whole_store (v : View sig .tc .vmem S1x784x784 .f32) (f : v.ty.Contents (Elt F)) (w : FVec F S1x784x784 .f32) :
    v.read (Elt F) (v.writes (Elt F) f
      [⟨Rect.unit (s := S1x784x784) ![0, 0, 0] S1x784x784.size inb_S1x784x784_S1x784x784_0_0_0, w⟩]) = w := by
  funext y
  exact View.read_writes_cons_unit_of_mem v f inb_S1x784x784_S1x784x784_0_0_0 w [] y y rfl
    (fun a => by match a with
      | ⟨0, _⟩ => exact (Nat.zero_add _).symm
      | ⟨1, _⟩ => exact (Nat.zero_add _).symm
      | ⟨2, _⟩ => exact (Nat.zero_add _).symm)

/-- A load through the whole scratch reads its contents. -/
theorem readAt_whole (v : View sig .tc .vmem S784x784 .f32) (g : v.ty.Contents (Elt F)) :
    View.readAt (Elt F) v (Rect.unit (s := S784x784) ![0, 0] S784x784.size inb_S784x784_S784x784_0_0).toLoadRect g
      = v.read (Elt F) g := by
  have hz : (![0, 0] : Fin 2 → ℕ) = fun _ => 0 := funext fun a => by
    match a with
    | ⟨0, _⟩ => rfl
    | ⟨1, _⟩ => rfl
  rw [View.readAt_eq_ld, View.ld_unit_zero (S := S784x784) hz]

set_option maxHeartbeats 1000000 in
/-- THE BODY BEFORE THE SEVENTH BLOCK: the input block and the output's buffer are left as they were, the scratch
    has the point's 112 rows overwritten by the head sum. -/
theorem run_fill (c : Dev nD) (i : grid0.Coords) (arg2 : Memref sig .tc .vmem S1x12x112x784 .f32) (harg2 : arg2.IsWhole)
    (arg3 : Memref sig .tc .vmem S1x784x784 .f32) (harg3 : arg3.IsWhole) (arg4 : Memref sig .tc .vmem S784x784 .f32) (harg4 : arg4.IsWhole)
    (hc : ¬lastBlock i) (x0 : Vec F S1x12x112x784 .f32) (xi1 : Vec F S1x784x784 .f32) (xs0 : Vec F S784x784 .f32) :
      ∀ (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1
                ∗ owns (c : Thread nD τ) arg4 fullShare (scratchAfter i arg4 harg4 xs0 (headSum c i arg2 harg2 arg3 harg3 arg4 harg4 x0))) -∗ K ⟨⟩))
          ⊢ wp frame (wpE (defs₀ (F := F)) Variants.none c none) E (cc0__fused_kernel i arg2 harg2 arg3 harg3 arg4 harg4) K := by
    intro E K
    simp only [cc0__fused_kernel_eq_skeleton]; unfold cc0__fused_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact HS0
    ipureintro; rfl

set_option maxHeartbeats 1000000 in
/-- THE BODY AT THE SEVENTH BLOCK: the same store into the scratch, and then the output's buffer holds the softmax
    of the whole scratch as it then stands. -/
theorem run_last (c : Dev nD) (i : grid0.Coords) (arg2 : Memref sig .tc .vmem S1x12x112x784 .f32) (harg2 : arg2.IsWhole)
    (arg3 : Memref sig .tc .vmem S1x784x784 .f32) (harg3 : arg3.IsWhole) (arg4 : Memref sig .tc .vmem S784x784 .f32) (harg4 : arg4.IsWhole)
    (hc : lastBlock i) (x0 : Vec F S1x12x112x784 .f32) (xi1 : Vec F S1x784x784 .f32) (xs0 : Vec F S784x784 .f32) :
      ∀ (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0
                ∗ owns (c : Thread nD τ) arg3 fullShare (k0_pay4 (scratchAfter i arg4 harg4 xs0 (headSum c i arg2 harg2 arg3 harg3 arg4 harg4 x0)))
                ∗ owns (c : Thread nD τ) arg4 fullShare (scratchAfter i arg4 harg4 xs0 (headSum c i arg2 harg2 arg3 harg3 arg4 harg4 x0))) -∗ K ⟨⟩))
          ⊢ wp frame (wpE (defs₀ (F := F)) Variants.none c none) E (cc0__fused_kernel i arg2 harg2 arg3 harg3 arg4 harg4) K := by
    intro E K
    simp only [cc0__fused_kernel_eq_skeleton]; unfold cc0__fused_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc)
    sl_step
    iapply Hk
    isplitl [H0]
    · iexists _; isplitr; · ipureintro; exact harg2.read_unread _
      iexact H0
    isplitl [H1]
    · iexists _; isplitr; swap; · iexact H1
      ipureintro
      rw [read_whole_store, readAt_whole]
      rfl
    iexists _; isplitr; swap; · iexact HS0
    ipureintro; rfl

end Cert.Kernel.Body

end
-- ==== Proof.BitsGrid.lean ====
/-
  The kernel over its grid: what the scratch holds point by point, the proof data, the body obligation, the run.

  Point t = 7·b + n stores rows [112·n, 112·n + 112) of batch b's aggregate into the scratch, so before point t the
  rows below 112·(t mod 7) hold the row blocks of points 7·b … t − 1 and the rest is not named. After the seventh
  block the scratch is batch b's whole aggregate, and the output block — written back only there — is its softmax.
-/
import proofs.«141324_j5093831213743_2_alg».proof.Proof.BitsPoint
import Idealize.ShloMosaic.Lib.ValueIdx
import proofs.«141324_j5093831213743_2_alg».proof.Proof.Gen.Kernel.Launch
import proofs.«141324_j5093831213743_2_alg».proof.Proof.Gen.Kernel.Skeleton
import proofs.«141324_j5093831213743_2_alg».proof.Proof.Gen.Kernel.Loops
import proofs.«141324_j5093831213743_2_alg».proof.Proof.Gen.Kernel.Points
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The scratch, point by point -/

/-- The 112 rows point `t` computes: the head sum of its input block. -/
def rowBlock (c : Dev nD) (t : Fin cfg0.N) : FVec F S112x784 .f32 :=
  headSum c (grid0.coords t) (inBuf t) (inBuf_whole t) (outBuf t) (outBuf_whole t) scratch (Memref.isWhole_whole _) (iblk m c 0 t)

/-- The same by the point's number (zeros past the grid, never read). -/
def rowBlockAt (c : Dev nD) (n : ℕ) : FVec F S112x784 .f32 :=
  if h : n < cfg0.N then rowBlock m c ⟨n, h⟩ else k0_pay1

theorem rowBlockAt_val (c : Dev nD) (t : Fin cfg0.N) : rowBlockAt m c t.val = rowBlock m c t := by
  unfold rowBlockAt; rw [dif_pos t.isLt]

/-- Batch `b`'s whole aggregate as the seven points leave it in the scratch: row `r` comes from point
    `7·b + r / 112`, at its row `r mod 112`. -/
def filled (c : Dev nD) (b : ℕ) : Vec F S784x784 .f32 := fun y =>
  rowBlockAt m c (7 * b + (y 0).val / 112) (ix2 (⟨(y 0).val % 112, Nat.mod_lt _ (by norm_num)⟩ : Fin 112) (y 1))

/-- Before point `n` the scratch agrees with its batch's aggregate on the rows the batch's earlier points stored. -/
def FilledTo (c : Dev nD) (n : ℕ) (d : Vec F S784x784 .f32) : Prop :=
  ∀ y : S784x784.Idx, (y 0).val < 112 * (n % 7) → d y = filled m c (n / 7) y

/-- A store of 112 whole rows at row offset `off 0`, read inside those rows, is the stored block there, -/
theorem rows_in (v : View sig .tc .vmem S784x784 .f32) (f : v.ty.Contents (Elt F)) (off : Fin 2 → ℕ)
    (inb : ∀ a, off a + S112x784.size a ≤ S784x784.size a) (w : FVec F S112x784 .f32) (y : S784x784.Idx) (x : S112x784.Idx)
    (hx : ∀ a, (y a).val = off a + (x a).val) :
    v.read (Elt F) (v.writes (Elt F) f [⟨Rect.unit (s := S784x784) off S112x784.size inb, w⟩]) y = w x :=
  View.read_writes_cons_unit_of_mem v f inb w [] y x rfl hx

/-- and read at any other row is what was there. -/
theorem rows_out (v : View sig .tc .vmem S784x784 .f32) (f : v.ty.Contents (Elt F)) (off : Fin 2 → ℕ)
    (inb : ∀ a, off a + S112x784.size a ≤ S784x784.size a) (w : FVec F S112x784 .f32) (y : S784x784.Idx)
    (h : (y 0).val < off 0 ∨ off 0 + 112 ≤ (y 0).val) :
    v.read (Elt F) (v.writes (Elt F) f [⟨Rect.unit (s := S784x784) off S112x784.size inb, w⟩]) y = v.read (Elt F) f y :=
  View.read_writes_cons_unit_of_not_mem v f inb w [] y rfl (0 : Fin 2) h

/-- Inside the point's rows the scratch reads the stored block, -/
theorem scratchAfter_in (t : Fin cfg0.N) (arg4 : Memref sig .tc .vmem S784x784 .f32) (harg4 : arg4.IsWhole)
    (xs0 : Vec F S784x784 .f32) (v : FVec F S112x784 .f32) (y : S784x784.Idx) (x : S112x784.Idx)
    (h0 : (y 0).val = 112 * (t.val % 7) + (x 0).val) (h1 : (y 1).val = (x 1).val) :
    scratchAfter (grid0.coords t) arg4 harg4 xs0 v y = v x := by
  unfold scratchAfter
  refine rows_in arg4.view _ _ (k0_off2_inb (grid0.coords t)) v y x (fun a => ?_)
  rw [rowOffset t]
  match a with
  | ⟨0, _⟩ => exact h0
  | ⟨1, _⟩ => exact h1.trans (Nat.zero_add _).symm

/-- outside them what it held. -/
theorem scratchAfter_out (t : Fin cfg0.N) (arg4 : Memref sig .tc .vmem S784x784 .f32) (harg4 : arg4.IsWhole)
    (xs0 : Vec F S784x784 .f32) (v : FVec F S112x784 .f32) (y : S784x784.Idx)
    (h : (y 0).val < 112 * (t.val % 7) ∨ 112 * (t.val % 7) + 112 ≤ (y 0).val) :
    scratchAfter (grid0.coords t) arg4 harg4 xs0 v y = xs0 y := by
  unfold scratchAfter
  refine (rows_out arg4.view _ _ (k0_off2_inb (grid0.coords t)) v y ?_).trans ?_
  · rw [rowOffset t]; exact h
  · rw [harg4.read_unread]

/-- After point `t` the scratch agrees with the aggregate on the rows through the point's own. -/
theorem filled_after (c : Dev nD) (t : Fin cfg0.N) (d : Vec F S784x784 .f32) (hd : FilledTo m c t.val d)
    (y : S784x784.Idx) (hy : (y 0).val < 112 * (t.val % 7 + 1)) :
    scratchAfter (grid0.coords t) scratch (Memref.isWhole_whole _) d (rowBlock m c t) y = filled m c (t.val / 7) y := by
  by_cases hlt : (y 0).val < 112 * (t.val % 7)
  · rw [scratchAfter_out t _ _ _ _ y (Or.inl hlt)]
    exact hd y hlt
  · have hq : 7 * (t.val / 7) + (y 0).val / 112 = t.val := by omega
    rw [scratchAfter_in t _ _ _ _ y (ix2 (⟨(y 0).val % 112, Nat.mod_lt _ (by norm_num)⟩ : Fin 112) (y 1))
      (by show (y 0).val = 112 * (t.val % 7) + (y 0).val % 112; omega) rfl]
    unfold filled
    rw [hq, rowBlockAt_val]

/-- Before the seventh block that is the invariant at the next point; -/
theorem filledTo_succ (c : Dev nD) (t : Fin cfg0.N) (d : Vec F S784x784 .f32) (hd : FilledTo m c t.val d) (h : ¬t.val % 7 = 6) :
    FilledTo m c (t.val + 1) (scratchAfter (grid0.coords t) scratch (Memref.isWhole_whole _) d (rowBlock m c t)) := by
  intro y hy
  have h1 : (t.val + 1) % 7 = t.val % 7 + 1 := by omega
  have h2 : (t.val + 1) / 7 = t.val / 7 := by omega
  rw [h1] at hy; rw [h2]
  exact filled_after m c t d hd y hy

/-- at the seventh block the scratch is the batch's whole aggregate, -/
theorem filled_full (c : Dev nD) (t : Fin cfg0.N) (d : Vec F S784x784 .f32) (hd : FilledTo m c t.val d) (h : t.val % 7 = 6) :
    scratchAfter (grid0.coords t) scratch (Memref.isWhole_whole _) d (rowBlock m c t) = filled m c (t.val / 7) := by
  funext y
  have := idx2_lt0 y
  exact filled_after m c t d hd y (by omega)

/-- and the next point, a batch's first, asks nothing of it. -/
theorem filledTo_first (c : Dev nD) (n : ℕ) (h : n % 7 = 0) (d : Vec F S784x784 .f32) : FilledTo m c n d := by
  intro y hy; rw [h] at hy; omega

/-! ## The proof data -/

/-- The region's invariant before point `n`: the scratch at contents that agree with the aggregate so far, and the
    generator register at some state. -/
def PhiS (c : Dev nD) (n : ℕ) : sProp 𝕄 :=
  iprop(iprop(∃ d, ⌜FilledTo m c n d⌝ ∗ owns (c : Thread nD τ) scratch fullShare d) ∗ (∃ r, prngReg c r))

/-- The proof data on core `c`: the arrays as the region finds them; the input's buffer at its block; the output's,
    where the body stores it, at the softmax of the batch's aggregate; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay4 (filled m c (t.val / 7))
  Φ t := PhiS m c t.val
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = k0_pay4 (filled m c (t.val / 7)) := by dsimp only [dats]

/-- The input's buffer holds its block at every point. -/
theorem before_in (c : Dev nD) (t : Fin cfg0.N) (d) : (dats m 0 c).before 0 t d = iblk m c 0 t :=
  before0_0_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 1600000 in
/-- The body at any point: by the point's case, the matching run; the invariant hands over the scratch with its
    earlier rows known and takes it back with the point's rows added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from rfl]
  rw [show (dats m 0 c).leavesExact 0 t = owns (c : Thread nD τ) (inBuf t) fullShare ((dats m 0 c).after 0 t) from by
    unfold Dat.leavesExact; rw [in_live t], after_in]
  unfold PhiS
  by_cases h : t.val % 7 = 6
  · rw [show (dats m 0 c).leavesExact 1 t = owns (c : Thread nD τ) (outBuf t) fullShare ((dats m 0 c).after 1 t) from by
      unfold Dat.leavesExact; rw [out_live t ((lastBlock_iff t).mpr h)], after_out]
    iintro ⟨⟨⟨%d, %hd, HS⟩, Hg⟩, Ho, ⟨%d0, H0⟩, ⟨%d1, H1⟩⟩
    iapply (run_last c (grid0.coords t) _ _ _ _ _ _ ((lastBlock_iff t).mpr h) (iblk m c 0 t) _ d Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro; exact filledTo_first m c _ (by omega) _
      iexact Hg
    isplitl [Ho]; · iexact Ho
    isplitl [H0]; · iexact H0
    rw [← filled_full m c t d hd h]
    iexact H1
  · rw [Dat.leavesExact_idle (dats m 0 c) 1 t (out_idle t (fun hl => h ((lastBlock_iff t).mp hl)))
      (out_noFlush t (fun hl => h ((lastBlock_iff t).mp hl)))]
    iintro ⟨⟨⟨%d, %hd, HS⟩, Hg⟩, Ho, ⟨%d0, H0⟩, ⟨%d1, H1⟩⟩
    iapply (run_fill c (grid0.coords t) _ _ _ _ _ _ (fun hl => h ((lastBlock_iff t).mp hl)) (iblk m c 0 t) _ d Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro; exact filledTo_succ m c t d hd h
      iexact Hg
    isplitl [Ho]; · iexact Ho
    isplitl [H0]; · iexact H0
    iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d; isplitr; swap; · iexact HS
    ipureintro; exact filledTo_first m c 0 rfl d
  iexact Hg

/-- After the last point the invariant gives it back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS⟩, Hg⟩
  isplitl [HS]
  · iexists d; iexact HS
  iexact Hg

/-! ## The run and the frame -/

set_option backward.isDefEq.respectTransparency.types false in
/-- Every weakly fair execution of @main terminates, with the output array at what the write-backs of the proof data
    leave and the argument array as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.IdealPoint.lean ====
/-
  The kernel's body at one grid point, on any staging memrefs.

  The grid is 16 batches by 7 row blocks, point t = 7·b + n. At every point the body sums, over the 12 heads, the
  head's 112×784 row block times its row sums (a counted loop carrying the partial sum), and stores the result into
  rows [112·n, 112·n + 112) of the 784×784 scratch. At the seventh block of a batch (n = 6) it then reads the whole
  scratch, takes the global maximum, exponentiates the differences, divides by their total, and stores that into the
  output's staging buffer. Two runs, one per case, each stating what every buffer holds afterwards as a function of
  what it held before.
-/
import proofs.«141324_j5093831213743_2_alg».proof.Proof.Gen.KernelIdeal.Frame
import proofs.«141324_j5093831213743_2_alg».proof.Proof.Gen.KernelIdeal.Launch
import proofs.«141324_j5093831213743_2_alg».proof.Proof.Gen.KernelIdeal.Skeleton
import proofs.«141324_j5093831213743_2_alg».proof.Proof.Gen.KernelIdeal.Loops
import proofs.«141324_j5093831213743_2_alg».proof.Proof.Gen.KernelIdeal.Points
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the points fall -/

/-- The body's branch: the point is the seventh row block of its batch. -/
abbrev lastBlock (i : grid0.Coords) : Prop := k0_cond1 i = 1#1

/-- That is the points ≡ 6 (mod 7). -/
theorem lastBlock_iff : ∀ t : Fin cfg0.N, lastBlock (grid0.coords t) ↔ t.val % 7 = 6 :=
  (by decide +kernel : ∀ t : Fin grid0.N, lastBlock (grid0.coords t) ↔ t.val % 7 = 6)

/-- The input window is live at every point. -/
theorem in_live : ∀ t : Fin cfg0.N, cfg0.idle 0 (grid0.coords t) = false := by decide +kernel
/-- Before the seventh block the output window is idle -/
theorem out_idle : ∀ t : Fin cfg0.N, ¬lastBlock (grid0.coords t) → cfg0.idle 1 (grid0.coords t) = true := by decide +kernel
/-- and not written back; -/
theorem out_noFlush : ∀ t : Fin cfg0.N, ¬lastBlock (grid0.coords t) → (cfg0.win 1).flush t = false := by decide +kernel
/-- at the seventh block it is live. -/
theorem out_live : ∀ t : Fin cfg0.N, lastBlock (grid0.coords t) → cfg0.idle 1 (grid0.coords t) = false := by decide +kernel
/-- The scratch rows a point stores start at 112 times its row block. -/
theorem rowOffset : ∀ t : Fin cfg0.N, k0_off2 (grid0.coords t) = ![112 * (t.val % 7), 0] :=
  (by decide +kernel : ∀ t : Fin grid0.N, k0_off2 (grid0.coords t) = ![112 * (t.val % 7), 0])

/-! ## The memrefs the body is called with -/

abbrev inBuf (t : Fin cfg0.N) : Memref sig .tc .vmem S1x12x112x784 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S1x784x784 .f32 := win0_1.stage (cfg0.slots t 1)
abbrev outBuf_whole (t : Fin cfg0.N) : (outBuf t).IsWhole := hstage0_1 ((cfg0.slots t 1).cast nbuf0_1)
abbrev scratch : Memref sig .tc .vmem S784x784 .f32 := Memref.whole cc0_scratch0

/-- The region's plain invariant is the scratch at some contents and the generator register at some state. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## What one point computes and leaves -/

/-- The head loop's result from the staged input block `x0`: the sum over the heads of the head's rows times their
    row sums, as the loop carries it. -/
def headSum (c : Dev nD) (i : grid0.Coords) (arg2 : Memref sig .tc .vmem S1x12x112x784 .f32) (harg2 : arg2.IsWhole)
    (arg3 : Memref sig .tc .vmem S1x784x784 .f32) (harg3 : arg3.IsWhole) (arg4 : Memref sig .tc .vmem S784x784 .f32) (harg4 : arg4.IsWhole)
    (x0 : Vec F S1x12x112x784 .f32) : FVec F S112x784 .f32 :=
  k0_pay3 (st_k0_t1 Variants.none c none i arg2 harg2 arg3 harg3 arg4 harg4 (harg2.unread x0) k0_pay1
    (Scf.trips k0_t1_loop.lb k0_t1_loop.ub k0_t1_loop.st))

/-- The scratch after the point's store of `v` into its 112 rows, over prior contents `xs0`. -/
def scratchAfter (i : grid0.Coords) (arg4 : Memref sig .tc .vmem S784x784 .f32) (harg4 : arg4.IsWhole)
    (xs0 : Vec F S784x784 .f32) (v : FVec F S112x784 .f32) : Vec F S784x784 .f32 :=
  arg4.view.read (Elt F) (arg4.view.writes (Elt F) (harg4.unread xs0)
    [⟨Rect.unit (s := S784x784) (k0_off2 i) S112x784.size (k0_off2_inb i), v⟩])

/-- A store through the whole output block leaves its payload. -/
theorem read_whole_store (v : View sig .tc .vmem S1x784x784 .f32) (f : v.ty.Contents (Elt F)) (w : FVec F S1x784x784 .f32) :
    v.read (Elt F) (v.writes (Elt F) f
      [⟨Rect.unit (s := S1x784x784) ![0, 0, 0] S1x784x784.size inb_S1x784x784_S1x784x784_0_0_0, w⟩]) = w := by
  funext y
  exact View.read_writes_cons_unit_of_mem v f inb_S1x784x784_S1x784x784_0_0_0 w [] y y rfl
    (fun a => by match a with
      | ⟨0, _⟩ => exact (Nat.zero_add _).symm
      | ⟨1, _⟩ => exact (Nat.zero_add _).symm
      | ⟨2, _⟩ => exact (Nat.zero_add _).symm)

/-- A load through the whole scratch reads its contents. -/
theorem readAt_whole (v : View sig .tc .vmem S784x784 .f32) (g : v.ty.Contents (Elt F)) :
    View.readAt (Elt F) v (Rect.unit (s := S784x784) ![0, 0] S784x784.size inb_S784x784_S784x784_0_0).toLoadRect g
      = v.read (Elt F) g := by
  have hz : (![0, 0] : Fin 2 → ℕ) = fun _ => 0 := funext fun a => by
    match a with
    | ⟨0, _⟩ => rfl
    | ⟨1, _⟩ => rfl
  rw [View.readAt_eq_ld, View.ld_unit_zero (S := S784x784) hz]

set_option maxHeartbeats 1000000 in
/-- THE BODY BEFORE THE SEVENTH BLOCK: the input block and the output's buffer are left as they were, the scratch
    has the point's 112 rows overwritten by the head sum. -/
theorem run_fill (c : Dev nD) (i : grid0.Coords) (arg2 : Memref sig .tc .vmem S1x12x112x784 .f32) (harg2 : arg2.IsWhole)
    (arg3 : Memref sig .tc .vmem S1x784x784 .f32) (harg3 : arg3.IsWhole) (arg4 : Memref sig .tc .vmem S784x784 .f32) (harg4 : arg4.IsWhole)
    (hc : ¬lastBlock i) (x0 : Vec F S1x12x112x784 .f32) (xi1 : Vec F S1x784x784 .f32) (xs0 : Vec F S784x784 .f32) :
      ∀ (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1
                ∗ owns (c : Thread nD τ) arg4 fullShare (scratchAfter i arg4 harg4 xs0 (headSum c i arg2 harg2 arg3 harg3 arg4 harg4 x0))) -∗ K ⟨⟩))
          ⊢ wp frame (wpE (defs₀ (F := F)) Variants.none c none) E (cc0__fused_kernel i arg2 harg2 arg3 harg3 arg4 harg4) K := by
    intro E K
    simp only [cc0__fused_kernel_eq_skeleton]; unfold cc0__fused_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact HS0
    ipureintro; rfl

set_option maxHeartbeats 1000000 in
/-- THE BODY AT THE SEVENTH BLOCK: the same store into the scratch, and then the output's buffer holds the softmax
    of the whole scratch as it then stands. -/
theorem run_last (c : Dev nD) (i : grid0.Coords) (arg2 : Memref sig .tc .vmem S1x12x112x784 .f32) (harg2 : arg2.IsWhole)
    (arg3 : Memref sig .tc .vmem S1x784x784 .f32) (harg3 : arg3.IsWhole) (arg4 : Memref sig .tc .vmem S784x784 .f32) (harg4 : arg4.IsWhole)
    (hc : lastBlock i) (x0 : Vec F S1x12x112x784 .f32) (xi1 : Vec F S1x784x784 .f32) (xs0 : Vec F S784x784 .f32) :
      ∀ (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0
                ∗ owns (c : Thread nD τ) arg3 fullShare (k0_pay4 (scratchAfter i arg4 harg4 xs0 (headSum c i arg2 harg2 arg3 harg3 arg4 harg4 x0)))
                ∗ owns (c : Thread nD τ) arg4 fullShare (scratchAfter i arg4 harg4 xs0 (headSum c i arg2 harg2 arg3 harg3 arg4 harg4 x0))) -∗ K ⟨⟩))
          ⊢ wp frame (wpE (defs₀ (F := F)) Variants.none c none) E (cc0__fused_kernel i arg2 harg2 arg3 harg3 arg4 harg4) K := by
    intro E K
    simp only [cc0__fused_kernel_eq_skeleton]; unfold cc0__fused_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc)
    sl_step
    iapply Hk
    isplitl [H0]
    · iexists _; isplitr; · ipureintro; exact harg2.read_unread _
      iexact H0
    isplitl [H1]
    · iexists _; isplitr; swap; · iexact H1
      ipureintro
      rw [read_whole_store, readAt_whole]
      rfl
    iexists _; isplitr; swap; · iexact HS0
    ipureintro; rfl

end Cert.KernelIdeal.Body

end
-- ==== Proof.IdealGrid.lean ====
/-
  The kernel over its grid: what the scratch holds point by point, the proof data, the body obligation, the run.

  Point t = 7·b + n stores rows [112·n, 112·n + 112) of batch b's aggregate into the scratch, so before point t the
  rows below 112·(t mod 7) hold the row blocks of points 7·b … t − 1 and the rest is not named. After the seventh
  block the scratch is batch b's whole aggregate, and the output block — written back only there — is its softmax.
-/
import proofs.«141324_j5093831213743_2_alg».proof.Proof.IdealPoint
import Idealize.ShloMosaic.Lib.ValueIdx
import proofs.«141324_j5093831213743_2_alg».proof.Proof.Gen.KernelIdeal.Launch
import proofs.«141324_j5093831213743_2_alg».proof.Proof.Gen.KernelIdeal.Skeleton
import proofs.«141324_j5093831213743_2_alg».proof.Proof.Gen.KernelIdeal.Loops
import proofs.«141324_j5093831213743_2_alg».proof.Proof.Gen.KernelIdeal.Points
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The scratch, point by point -/

/-- The 112 rows point `t` computes: the head sum of its input block. -/
def rowBlock (c : Dev nD) (t : Fin cfg0.N) : FVec F S112x784 .f32 :=
  headSum c (grid0.coords t) (inBuf t) (inBuf_whole t) (outBuf t) (outBuf_whole t) scratch (Memref.isWhole_whole _) (iblk m c 0 t)

/-- The same by the point's number (zeros past the grid, never read). -/
def rowBlockAt (c : Dev nD) (n : ℕ) : FVec F S112x784 .f32 :=
  if h : n < cfg0.N then rowBlock m c ⟨n, h⟩ else k0_pay1

theorem rowBlockAt_val (c : Dev nD) (t : Fin cfg0.N) : rowBlockAt m c t.val = rowBlock m c t := by
  unfold rowBlockAt; rw [dif_pos t.isLt]

/-- Batch `b`'s whole aggregate as the seven points leave it in the scratch: row `r` comes from point
    `7·b + r / 112`, at its row `r mod 112`. -/
def filled (c : Dev nD) (b : ℕ) : Vec F S784x784 .f32 := fun y =>
  rowBlockAt m c (7 * b + (y 0).val / 112) (ix2 (⟨(y 0).val % 112, Nat.mod_lt _ (by norm_num)⟩ : Fin 112) (y 1))

/-- Before point `n` the scratch agrees with its batch's aggregate on the rows the batch's earlier points stored. -/
def FilledTo (c : Dev nD) (n : ℕ) (d : Vec F S784x784 .f32) : Prop :=
  ∀ y : S784x784.Idx, (y 0).val < 112 * (n % 7) → d y = filled m c (n / 7) y

/-- A store of 112 whole rows at row offset `off 0`, read inside those rows, is the stored block there, -/
theorem rows_in (v : View sig .tc .vmem S784x784 .f32) (f : v.ty.Contents (Elt F)) (off : Fin 2 → ℕ)
    (inb : ∀ a, off a + S112x784.size a ≤ S784x784.size a) (w : FVec F S112x784 .f32) (y : S784x784.Idx) (x : S112x784.Idx)
    (hx : ∀ a, (y a).val = off a + (x a).val) :
    v.read (Elt F) (v.writes (Elt F) f [⟨Rect.unit (s := S784x784) off S112x784.size inb, w⟩]) y = w x :=
  View.read_writes_cons_unit_of_mem v f inb w [] y x rfl hx

/-- and read at any other row is what was there. -/
theorem rows_out (v : View sig .tc .vmem S784x784 .f32) (f : v.ty.Contents (Elt F)) (off : Fin 2 → ℕ)
    (inb : ∀ a, off a + S112x784.size a ≤ S784x784.size a) (w : FVec F S112x784 .f32) (y : S784x784.Idx)
    (h : (y 0).val < off 0 ∨ off 0 + 112 ≤ (y 0).val) :
    v.read (Elt F) (v.writes (Elt F) f [⟨Rect.unit (s := S784x784) off S112x784.size inb, w⟩]) y = v.read (Elt F) f y :=
  View.read_writes_cons_unit_of_not_mem v f inb w [] y rfl (0 : Fin 2) h

/-- Inside the point's rows the scratch reads the stored block, -/
theorem scratchAfter_in (t : Fin cfg0.N) (arg4 : Memref sig .tc .vmem S784x784 .f32) (harg4 : arg4.IsWhole)
    (xs0 : Vec F S784x784 .f32) (v : FVec F S112x784 .f32) (y : S784x784.Idx) (x : S112x784.Idx)
    (h0 : (y 0).val = 112 * (t.val % 7) + (x 0).val) (h1 : (y 1).val = (x 1).val) :
    scratchAfter (grid0.coords t) arg4 harg4 xs0 v y = v x := by
  unfold scratchAfter
  refine rows_in arg4.view _ _ (k0_off2_inb (grid0.coords t)) v y x (fun a => ?_)
  rw [rowOffset t]
  match a with
  | ⟨0, _⟩ => exact h0
  | ⟨1, _⟩ => exact h1.trans (Nat.zero_add _).symm

/-- outside them what it held. -/
theorem scratchAfter_out (t : Fin cfg0.N) (arg4 : Memref sig .tc .vmem S784x784 .f32) (harg4 : arg4.IsWhole)
    (xs0 : Vec F S784x784 .f32) (v : FVec F S112x784 .f32) (y : S784x784.Idx)
    (h : (y 0).val < 112 * (t.val % 7) ∨ 112 * (t.val % 7) + 112 ≤ (y 0).val) :
    scratchAfter (grid0.coords t) arg4 harg4 xs0 v y = xs0 y := by
  unfold scratchAfter
  refine (rows_out arg4.view _ _ (k0_off2_inb (grid0.coords t)) v y ?_).trans ?_
  · rw [rowOffset t]; exact h
  · rw [harg4.read_unread]

/-- After point `t` the scratch agrees with the aggregate on the rows through the point's own. -/
theorem filled_after (c : Dev nD) (t : Fin cfg0.N) (d : Vec F S784x784 .f32) (hd : FilledTo m c t.val d)
    (y : S784x784.Idx) (hy : (y 0).val < 112 * (t.val % 7 + 1)) :
    scratchAfter (grid0.coords t) scratch (Memref.isWhole_whole _) d (rowBlock m c t) y = filled m c (t.val / 7) y := by
  by_cases hlt : (y 0).val < 112 * (t.val % 7)
  · rw [scratchAfter_out t _ _ _ _ y (Or.inl hlt)]
    exact hd y hlt
  · have hq : 7 * (t.val / 7) + (y 0).val / 112 = t.val := by omega
    rw [scratchAfter_in t _ _ _ _ y (ix2 (⟨(y 0).val % 112, Nat.mod_lt _ (by norm_num)⟩ : Fin 112) (y 1))
      (by show (y 0).val = 112 * (t.val % 7) + (y 0).val % 112; omega) rfl]
    unfold filled
    rw [hq, rowBlockAt_val]

/-- Before the seventh block that is the invariant at the next point; -/
theorem filledTo_succ (c : Dev nD) (t : Fin cfg0.N) (d : Vec F S784x784 .f32) (hd : FilledTo m c t.val d) (h : ¬t.val % 7 = 6) :
    FilledTo m c (t.val + 1) (scratchAfter (grid0.coords t) scratch (Memref.isWhole_whole _) d (rowBlock m c t)) := by
  intro y hy
  have h1 : (t.val + 1) % 7 = t.val % 7 + 1 := by omega
  have h2 : (t.val + 1) / 7 = t.val / 7 := by omega
  rw [h1] at hy; rw [h2]
  exact filled_after m c t d hd y hy

/-- at the seventh block the scratch is the batch's whole aggregate, -/
theorem filled_full (c : Dev nD) (t : Fin cfg0.N) (d : Vec F S784x784 .f32) (hd : FilledTo m c t.val d) (h : t.val % 7 = 6) :
    scratchAfter (grid0.coords t) scratch (Memref.isWhole_whole _) d (rowBlock m c t) = filled m c (t.val / 7) := by
  funext y
  have := idx2_lt0 y
  exact filled_after m c t d hd y (by omega)

/-- and the next point, a batch's first, asks nothing of it. -/
theorem filledTo_first (c : Dev nD) (n : ℕ) (h : n % 7 = 0) (d : Vec F S784x784 .f32) : FilledTo m c n d := by
  intro y hy; rw [h] at hy; omega

/-! ## The proof data -/

/-- The region's invariant before point `n`: the scratch at contents that agree with the aggregate so far, and the
    generator register at some state. -/
def PhiS (c : Dev nD) (n : ℕ) : sProp 𝕄 :=
  iprop(iprop(∃ d, ⌜FilledTo m c n d⌝ ∗ owns (c : Thread nD τ) scratch fullShare d) ∗ (∃ r, prngReg c r))

/-- The proof data on core `c`: the arrays as the region finds them; the input's buffer at its block; the output's,
    where the body stores it, at the softmax of the batch's aggregate; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay4 (filled m c (t.val / 7))
  Φ t := PhiS m c t.val
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = k0_pay4 (filled m c (t.val / 7)) := by dsimp only [dats]

/-- The input's buffer holds its block at every point. -/
theorem before_in (c : Dev nD) (t : Fin cfg0.N) (d) : (dats m 0 c).before 0 t d = iblk m c 0 t :=
  before0_0_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 1600000 in
/-- The body at any point: by the point's case, the matching run; the invariant hands over the scratch with its
    earlier rows known and takes it back with the point's rows added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from rfl]
  rw [show (dats m 0 c).leavesExact 0 t = owns (c : Thread nD τ) (inBuf t) fullShare ((dats m 0 c).after 0 t) from by
    unfold Dat.leavesExact; rw [in_live t], after_in]
  unfold PhiS
  by_cases h : t.val % 7 = 6
  · rw [show (dats m 0 c).leavesExact 1 t = owns (c : Thread nD τ) (outBuf t) fullShare ((dats m 0 c).after 1 t) from by
      unfold Dat.leavesExact; rw [out_live t ((lastBlock_iff t).mpr h)], after_out]
    iintro ⟨⟨⟨%d, %hd, HS⟩, Hg⟩, Ho, ⟨%d0, H0⟩, ⟨%d1, H1⟩⟩
    iapply (run_last c (grid0.coords t) _ _ _ _ _ _ ((lastBlock_iff t).mpr h) (iblk m c 0 t) _ d Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro; exact filledTo_first m c _ (by omega) _
      iexact Hg
    isplitl [Ho]; · iexact Ho
    isplitl [H0]; · iexact H0
    rw [← filled_full m c t d hd h]
    iexact H1
  · rw [Dat.leavesExact_idle (dats m 0 c) 1 t (out_idle t (fun hl => h ((lastBlock_iff t).mp hl)))
      (out_noFlush t (fun hl => h ((lastBlock_iff t).mp hl)))]
    iintro ⟨⟨⟨%d, %hd, HS⟩, Hg⟩, Ho, ⟨%d0, H0⟩, ⟨%d1, H1⟩⟩
    iapply (run_fill c (grid0.coords t) _ _ _ _ _ _ (fun hl => h ((lastBlock_iff t).mp hl)) (iblk m c 0 t) _ d Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro; exact filledTo_succ m c t d hd h
      iexact Hg
    isplitl [Ho]; · iexact Ho
    isplitl [H0]; · iexact H0
    iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d; isplitr; swap; · iexact HS
    ipureintro; exact filledTo_first m c 0 rfl d
  iexact Hg

/-- After the last point the invariant gives it back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS⟩, Hg⟩
  isplitl [HS]
  · iexists d; iexact HS
  iexact Hg

/-! ## The run and the frame -/

set_option backward.isDefEq.respectTransparency.types false in
/-- Every weakly fair execution of @main terminates, with the output array at what the write-backs of the proof data
    leave and the argument array as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.LibRowLogSoftmax.lean ====
/-
  The row-wise log-softmax over the extended reals, entry by entry, for any extents.

  For a row p of an [n, k] array Z let M p be the fold of `max` over the row starting from a value `ninf` (the programs pass
  the word of minus infinity, and it is never evaluated here). The log-softmax at (p, q) is
  `(Z (p, q) - M p) - log (∑ c, exp (Z (p, c) - M p))`. A kernel body spells it with two lane reductions (a maximum and a sum
  over axis 1), each result viewed as a column [n, 1] and spread back over the k columns; a host program spells it with two
  reduce operations, an extra maximum of the row maximum with the spread starting value (which changes nothing, the fold
  being at least its starting value), each result placed along axis 0 of a column and spread over the columns, and a sum
  that starts from a zero constant. Both are `logSoftmax`. The column forms of the layout operations come first.
-/
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.LibRowLogSoftmax

open Idealize.ShloMosaic Idealize.ShloMosaic.ValueIdx

/-! ## Column forms: [a] as [a, 1], and [a, 1] spread over b columns -/

section Columns
variable {α : Type}

/-- A vector of `a` entries viewed as the one-column matrix `[a, 1]` reads, at `(p, u)`, the entry `p`. -/
theorem cast_a_a1 {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- A one-column matrix `[a, 1]` spread over `b` columns reads, at `(p, c)`, its row `p`. -/
theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector placed along axis 0 of a one-column matrix reads, at `(p, u)`, the entry `p`. -/
theorem colOfVec_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A one-column matrix spread over `b` columns (axes kept in place) reads, at `(p, c)`, its row `p`. -/
theorem spreadCol_apply {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) :=
  broadcastInDim_apply ![0, 1] h w (ix2 p c) (ix2 p (0 : Fin 1)) fun ax => by
    match ax with
    | ⟨0, _⟩ =>
      show p.val = if a = 1 then 0 else p.val
      split
      · have := p.isLt; omega
      · rfl
    | ⟨1, _⟩ => rfl

/-- A rank-zero array spread over any shape reads its one entry everywhere. -/
theorem spreadScalar_apply {s : Shape} (h : (⟨0, ![]⟩ : Shape).BroadcastsInDim s ![])
    (z : (⟨0, ![]⟩ : Shape).Idx → α) (i : s.Idx) : broadcastInDim s ![] h z i = z ix0 :=
  broadcastInDim_apply _ h z i ix0 (fun a => a.elim0)

end Columns

/-- Putting column `c` back into row `p` of an array reduced over axis 1 gives the index `(p, c)`. -/
theorem lift_row {n k : ℕ} (h : (⟨2, ![n, k]⟩ : Shape).Reduces [1] (⟨1, ![n]⟩ : Shape)) (p : Fin n)
    (c : Fin ((⟨2, ![n, k]⟩ : Shape).size 1)) : h.lift (ix1 p) c = ix2 p (⟨c.val, c.isLt⟩ : Fin k) := by
  funext a; apply Fin.ext
  match a with
  | ⟨0, _⟩ => rfl
  | ⟨1, _⟩ => rfl

/-! ## The specification -/

/-- The maximum of row `p`, folded from `ninf`. -/
def rowMax {n k : ℕ} (ninf : EReal) (Z : (⟨2, ![n, k]⟩ : Shape).Idx → EReal) (p : Fin n) : EReal :=
  (Finset.univ : Finset (Fin k)).fold max ninf (fun c => Z (ix2 p c))

/-- The row-wise log-softmax. -/
def logSoftmax {n k : ℕ} (ninf : EReal) (Z : (⟨2, ![n, k]⟩ : Shape).Idx → EReal) : (⟨2, ![n, k]⟩ : Shape).Idx → EReal :=
  fun i => (Z i - rowMax ninf Z (i 0)) - Ideal.log (∑ c : Fin k, Ideal.exp (Z (ix2 (i 0) c) - rowMax ninf Z (i 0)))

theorem logSoftmax_apply {n k : ℕ} (ninf : EReal) (Z : (⟨2, ![n, k]⟩ : Shape).Idx → EReal) (p : Fin n) (q : Fin k) :
    logSoftmax ninf Z (ix2 p q)
      = (Z (ix2 p q) - rowMax ninf Z p) - Ideal.log (∑ c : Fin k, Ideal.exp (Z (ix2 p c) - rowMax ninf Z p)) := rfl

/-- The fold of `max` from a value is at least that value, so one more `max` with it changes nothing. -/
theorem max_rowMax {n k : ℕ} (ninf : EReal) (Z : (⟨2, ![n, k]⟩ : Shape).Idx → EReal) (p : Fin n) :
    max ninf (rowMax ninf Z p) = rowMax ninf Z p :=
  max_eq_right ((Finset.le_fold_max ninf).mpr (Or.inl le_rfl))

/-! ## The kernel body's spelling -/

theorem exp_apply {s : Shape} (x : FVec Ideal s .f32) (i : s.Idx) : exp x i = Ideal.exp (x i) := rfl
theorem log_apply {s : Shape} (x : FVec Ideal s .f32) (i : s.Idx) : log x i = Ideal.log (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- A lane maximum over axis 1 from the word of minus infinity, read at row `p`. -/
theorem kernel_rowMax {n k : ℕ} (Z : FVec Ideal ⟨2, ![n, k]⟩ .f32)
    (hr : (⟨2, ![n, k]⟩ : Shape).Reduces [1] (⟨1, ![n]⟩ : Shape)) (hφ : FKind.Formats .f32)
    (hmax : (0xFF800000#32 : BitVec FTy.f32.bits) = FKind.maximumf.neutral .f32 hφ) (p : Fin n) :
    multiReduction .maximumf [1] ⟨1, ![n]⟩ Z 0xFF800000#32 hr hφ hmax (ix1 p)
      = rowMax (Ideal.ofBits .f32 0xFF800000#32) Z p := by
  rw [Ideal.multiReduction_maximumf_single]
  exact congrArg (fun f => Finset.fold max (Ideal.ofBits .f32 0xFF800000#32) f Finset.univ)
    (funext fun c => congrArg Z (lift_row hr p c))

/-- The kernel body's log-softmax of a block. -/
theorem kernel_logSoftmax {n k : ℕ} (Z : FVec Ideal ⟨2, ![n, k]⟩ .f32)
    (hr : (⟨2, ![n, k]⟩ : Shape).Reduces [1] (⟨1, ![n]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![n]⟩ : Shape).ShapeCasts ⟨2, ![n, 1]⟩) (hb : (⟨2, ![n, 1]⟩ : Shape).Broadcasts ⟨2, ![n, k]⟩) :
    subf (subf Z (broadcastTo ⟨2, ![n, k]⟩ (shapeCast ⟨2, ![n, 1]⟩
          (multiReduction .maximumf [1] ⟨1, ![n]⟩ Z 0xFF800000#32 hr hφ hmax) hc) hb))
      (broadcastTo ⟨2, ![n, k]⟩ (log (shapeCast ⟨2, ![n, 1]⟩ (multiReduction .add [1] ⟨1, ![n]⟩
        (exp (subf Z (broadcastTo ⟨2, ![n, k]⟩ (shapeCast ⟨2, ![n, 1]⟩
          (multiReduction .maximumf [1] ⟨1, ![n]⟩ Z 0xFF800000#32 hr hφ hmax) hc) hb)))
        0x00000000#32 hr hφ hadd) hc)) hb)
      = logSoftmax (Ideal.ofBits .f32 0xFF800000#32) Z := by
  have hS : ∀ (p : Fin n) (c : Fin k), subf Z (broadcastTo ⟨2, ![n, k]⟩ (shapeCast ⟨2, ![n, 1]⟩
      (multiReduction .maximumf [1] ⟨1, ![n]⟩ Z 0xFF800000#32 hr hφ hmax) hc) hb) (ix2 p c)
      = Z (ix2 p c) - rowMax (Ideal.ofBits .f32 0xFF800000#32) Z p := by
    intro p c
    rw [subf_apply, bcast_a1_ab, cast_a_a1, kernel_rowMax]
  funext i
  obtain ⟨p, q, rfl⟩ : ∃ (p : Fin n) (q : Fin k), i = ix2 p q := ⟨i 0, i 1, eq_ix2 i⟩
  rw [subf_apply, hS, bcast_a1_ab, log_apply, cast_a_a1, Ideal.multiReduction_add_single, logSoftmax_apply]
  refine congrArg (fun s => (Z (ix2 p q) - rowMax (Ideal.ofBits .f32 0xFF800000#32) Z p) - Ideal.log s) ?_
  refine Finset.sum_congr rfl fun c _ => ?_
  rw [lift_row, exp_apply, hS]
  rfl

/-! ## The host program's spelling -/

/-- The host's reduce with a maximum body over axis 1, read at row `p`. -/
theorem host_rowMax {n k : ℕ} (Z : FVec Ideal ⟨2, ![n, k]⟩ .f32) (ninf : FVec Ideal ⟨0, ![]⟩ .f32)
    (hrt : (⟨2, ![n, k]⟩ : Shape).ReducesTo [1] (⟨1, ![n]⟩ : Shape))
    (hr : (⟨2, ![n, k]⟩ : Shape).Reduces [1] (⟨1, ![n]⟩ : Shape)) (hu : 0 < (⟨0, ![]⟩ : Shape).numel) (p : Fin n) :
    Host.reduce FloatOps.maximumf Z ninf hrt hu (ix1 p) = rowMax (ninf ix0) Z p := by
  rw [Host.reduce_eq_fold_single FloatOps.maximumf Z ninf hrt hr hu, eq_ix0 (Shape.Idx.first hu)]
  exact congrArg (fun f => Finset.fold max (ninf ix0) f Finset.univ)
    (funext fun c => congrArg Z (lift_row hr p c))

/-- The host program's log-softmax of an array. -/
theorem host_logSoftmax {n k : ℕ} (Z : FVec Ideal ⟨2, ![n, k]⟩ .f32) (ninf zc : FVec Ideal ⟨0, ![]⟩ .f32)
    (hrt : (⟨2, ![n, k]⟩ : Shape).ReducesTo [1] (⟨1, ![n]⟩ : Shape))
    (hr : (⟨2, ![n, k]⟩ : Shape).Reduces [1] (⟨1, ![n]⟩ : Shape)) (hu : 0 < (⟨0, ![]⟩ : Shape).numel)
    (h0 : (⟨0, ![]⟩ : Shape).BroadcastsInDim ⟨1, ![n]⟩ ![])
    (hcol : (⟨1, ![n]⟩ : Shape).BroadcastsInDim ⟨2, ![n, 1]⟩ ![0])
    (hsp : (⟨2, ![n, 1]⟩ : Shape).BroadcastsInDim ⟨2, ![n, k]⟩ ![0, 1]) (hz : zc ix0 = 0) :
    subf (subf Z (broadcastInDim ⟨2, ![n, k]⟩ ![0, 1] hsp (broadcastInDim ⟨2, ![n, 1]⟩ ![0] hcol
          (maximumf (broadcastInDim ⟨1, ![n]⟩ ![] h0 ninf) (Host.reduce FloatOps.maximumf Z ninf hrt hu)))))
      (broadcastInDim ⟨2, ![n, k]⟩ ![0, 1] hsp (Host.log (broadcastInDim ⟨2, ![n, 1]⟩ ![0] hcol
        (Host.reduceAdd (Host.exp (subf Z (broadcastInDim ⟨2, ![n, k]⟩ ![0, 1] hsp (broadcastInDim ⟨2, ![n, 1]⟩ ![0] hcol
          (maximumf (broadcastInDim ⟨1, ![n]⟩ ![] h0 ninf) (Host.reduce FloatOps.maximumf Z ninf hrt hu))))))
          zc hrt hu))))
      = logSoftmax (ninf ix0) Z := by
  have hS : ∀ (p : Fin n) (c : Fin k), subf Z (broadcastInDim ⟨2, ![n, k]⟩ ![0, 1] hsp (broadcastInDim ⟨2, ![n, 1]⟩ ![0] hcol
      (maximumf (broadcastInDim ⟨1, ![n]⟩ ![] h0 ninf) (Host.reduce FloatOps.maximumf Z ninf hrt hu)))) (ix2 p c)
      = Z (ix2 p c) - rowMax (ninf ix0) Z p := by
    intro p c
    rw [subf_apply, spreadCol_apply, colOfVec_apply, maximumf_apply, spreadScalar_apply, host_rowMax Z ninf hrt hr hu,
      max_rowMax]
  funext i
  obtain ⟨p, q, rfl⟩ : ∃ (p : Fin n) (q : Fin k), i = ix2 p q := ⟨i 0, i 1, eq_ix2 i⟩
  rw [subf_apply, hS, spreadCol_apply, hostLog_apply, colOfVec_apply, logSoftmax_apply]
  refine congrArg (fun s => (Z (ix2 p q) - rowMax (ninf ix0) Z p) - Ideal.log s) ?_
  simp only [Host.reduceAdd, Ideal.hostReduceAdd_def]
  rw [Ideal.hostReduceAdd_single hrt hr, eq_ix0 (Shape.Idx.first hu), hz, zero_add]
  refine Finset.sum_congr rfl fun c _ => ?_
  rw [lift_row, hostExp_apply, hS]
  rfl

/-! ## A row of the result depends on that row alone -/

/-- If row `p` of one array is row `P` of another, their log-softmax agree there. -/
theorem logSoftmax_congr_row {n₁ n₂ k : ℕ} (ninf : EReal) (Z₁ : (⟨2, ![n₁, k]⟩ : Shape).Idx → EReal)
    (Z₂ : (⟨2, ![n₂, k]⟩ : Shape).Idx → EReal) (p : Fin n₁) (P : Fin n₂) (h : ∀ c, Z₁ (ix2 p c) = Z₂ (ix2 P c)) (q : Fin k) :
    logSoftmax ninf Z₁ (ix2 p q) = logSoftmax ninf Z₂ (ix2 P q) := by
  have hM : rowMax ninf Z₁ p = rowMax ninf Z₂ P := by
    unfold rowMax
    exact congrArg (fun f => Finset.fold max ninf f Finset.univ) (funext h)
  rw [logSoftmax_apply, logSoftmax_apply, hM, h q]
  exact congrArg (fun s => (Z₂ (ix2 P q) - rowMax ninf Z₂ P) - Ideal.log s)
    (Finset.sum_congr rfl fun c _ => by rw [h c])

end Cert.LibRowLogSoftmax

end
-- ==== Proof.LibSumIdx.lean ====
/-
  Sums over the index sets of rank-3 and rank-4 shapes as iterated sums over the coordinates, and a sum over
  `Fin (n * k)` cut into `n` consecutive blocks of `k`. (Rank 2 is the library's `ValueIdx.sum_idx2`.)
-/
import Idealize.ShloMosaic.Lib.ValueIdx

noncomputable section

open scoped BigOperators

namespace Cert.LibSumIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `n * k` consecutive indices is the sum over `n` blocks of the sums over the `k` indices of each:
    index `k * t + a` is the `a`-th of block `t`. -/
theorem sum_blocks {M : Type*} [AddCommMonoid M] (n k : Nat) (f : Fin (n * k) → M) :
    ∑ r, f r = ∑ t : Fin n, ∑ a : Fin k, f ⟨k * t.val + a.val, by
      have := t.isLt; have := a.isLt
      calc k * t.val + a.val < k * t.val + k := by omega
        _ = k * (t.val + 1) := by ring
        _ ≤ k * n := Nat.mul_le_mul_left k (by omega)
        _ = n * k := Nat.mul_comm k n⟩ := by
  rw [← Equiv.sum_comp (finProdFinEquiv (m := n) (n := k)) f, Fintype.sum_prod_type]
  refine Finset.sum_congr rfl fun t _ => Finset.sum_congr rfl fun a _ => congrArg f (Fin.ext ?_)
  show a.val + k * t.val = k * t.val + a.val
  omega

end Cert.LibSumIdx

end
-- ==== Proof.LibFlatPlane.lean ====
/-
  Finite sums and maxima over a plane of n rows and k columns, read row by row or as one flat run of n·k entries.

  A sum accumulated left to right from zero is the finite sum. A sum (or a fold of `max` from a starting value) over the
  flat positions j < n·k of the entry at row j / k, column j % k is the sum over the rows of the row sums (the fold over
  the rows of the row folds): addition and `max` are commutative and associative, and position k·r + c is row r,
  column c. The maximum is compared through its upper bounds, so nothing is asked of the starting value.
-/
import proofs.«141324_j5093831213743_2_alg».proof.Proof.LibSumIdx
import Idealize.ShloMosaic.Lib.ValueIdx

open scoped BigOperators

noncomputable section

namespace Cert.LibFlatPlane

/-- A sum accumulated left to right from zero: after `n` steps, -/
def accTo {M : Type*} [AddCommMonoid M] (g : ℕ → M) : ℕ → M
  | 0 => 0
  | k + 1 => accTo g k + g k

/-- it is the sum of the first `n` terms. -/
theorem accTo_eq_sum {M : Type*} [AddCommMonoid M] (g : ℕ → M) (n : ℕ) : accTo g n = ∑ k : Fin n, g k.val := by
  rw [← Finset.sum_range]
  induction n with
  | zero => simp [accTo]
  | succ n ih => rw [accTo, ih, Finset.sum_range_succ]

section Flat
variable {n k N : ℕ}

/-- Position `k·r + c` is row `r`, column `c`. -/
theorem div_mod_block (hk : 0 < k) (r : Fin n) (c : Fin k) :
    (k * r.val + c.val) / k = r.val ∧ (k * r.val + c.val) % k = c.val := by
  constructor
  · rw [Nat.mul_add_div hk, Nat.div_eq_of_lt c.isLt, Nat.add_zero]
  · rw [Nat.mul_add_mod, Nat.mod_eq_of_lt c.isLt]

/-- An entry named by its flat position through any maps that compute the row and the column from it. -/
theorem at_block {α : Type*} (hk : 0 < k) (E : Fin n → Fin k → α) (p : Fin N → Fin n) (q : Fin N → Fin k)
    (hp : ∀ j, (p j).val = j.val / k) (hq : ∀ j, (q j).val = j.val % k) (r : Fin n) (c : Fin k) (j : Fin N)
    (hj : j.val = k * r.val + c.val) : E (p j) (q j) = E r c := by
  have h := div_mod_block hk r c
  rw [show p j = r from Fin.ext (by rw [hp, hj]; exact h.1), show q j = c from Fin.ext (by rw [hq, hj]; exact h.2)]

theorem block_lt (hN : N = n * k) (r : Fin n) (c : Fin k) : k * r.val + c.val < N := by
  have h1 : k * r.val + c.val < k * (r.val + 1) := by
    rw [Nat.mul_add, Nat.mul_one]; exact Nat.add_lt_add_left c.isLt _
  exact lt_of_lt_of_le h1 (by rw [hN, Nat.mul_comm n k]; exact Nat.mul_le_mul_left k r.isLt)

/-- The flat sum is the sum of the row sums. -/
theorem sum_flat {M : Type*} [AddCommMonoid M] (hN : N = n * k) (hk : 0 < k) (E : Fin n → Fin k → M)
    (p : Fin N → Fin n) (q : Fin N → Fin k) (hp : ∀ j, (p j).val = j.val / k) (hq : ∀ j, (q j).val = j.val % k) :
    ∑ j : Fin N, E (p j) (q j) = ∑ r : Fin n, ∑ c : Fin k, E r c := by
  subst hN
  rw [Cert.LibSumIdx.sum_blocks n k (fun j => E (p j) (q j))]
  exact Finset.sum_congr rfl fun r _ => Finset.sum_congr rfl fun c _ => at_block hk E p q hp hq r c _ rfl

/-- The flat fold of `max` is the fold over the rows of the row folds, from the same starting value. -/
theorem fold_max_flat (hN : N = n * k) (hk : 0 < k) (w : EReal) (X : Fin n → Fin k → EReal)
    (p : Fin N → Fin n) (q : Fin N → Fin k) (hp : ∀ j, (p j).val = j.val / k) (hq : ∀ j, (q j).val = j.val % k) :
    (Finset.univ : Finset (Fin N)).fold max w (fun j => X (p j) (q j))
      = (Finset.univ : Finset (Fin n)).fold max w (fun r => (Finset.univ : Finset (Fin k)).fold max w (fun c => X r c)) := by
  refine eq_of_forall_ge_iff fun z => ?_
  simp only [Finset.fold_max_le, Finset.mem_univ, forall_true_left]
  constructor
  · rintro ⟨hw, h⟩
    refine ⟨hw, fun r => ⟨hw, fun c => ?_⟩⟩
    have := h ⟨k * r.val + c.val, block_lt hN r c⟩
    rwa [at_block hk X p q hp hq r c ⟨_, block_lt hN r c⟩ rfl] at this
  · rintro ⟨hw, h⟩
    exact ⟨hw, fun j => (h (p j)).2 (q j)⟩

end Flat

end Cert.LibFlatPlane

end
-- ==== Proof.IdealHeadSum.lean ====
/-
  The head loop's result, read at an entry, over the extended reals.

  The input block x0 is 1×12×112×784: twelve heads of 112 rows by 784 columns. Trip h of the loop loads head h, sums
  each of its rows (a lane reduction from the zero word), views the 112 row sums as a column, spreads it over the 784
  columns, multiplies the head by it entry by entry and adds the product to the carried block, which starts at zero.
  So after the twelve trips the carried block at (r, c) is the sum over the heads h of x0 (0, h, r, c) times the sum
  over l of x0 (0, h, r, l): a sum accumulated left to right from zero is the finite sum.
-/
import proofs.«141324_j5093831213743_2_alg».proof.Proof.IdealPoint
import proofs.«141324_j5093831213743_2_alg».proof.Proof.LibRowLogSoftmax
import proofs.«141324_j5093831213743_2_alg».proof.Proof.LibFlatPlane
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.HeadSum

open Cert.KernelIdeal Cert.KernelIdeal.Gen Cert.KernelIdeal.Body Cert.LibRowLogSoftmax Cert.LibFlatPlane
open Idealize.ShloMosaic Idealize.ShloMosaic.ValueIdx Idealize.SL.Sem

/-- The loop runs twelve trips. -/
theorem trips_eq : k0_t1_loop.trips = 12 := by decide

/-! ## One trip -/

/-- The row sums of a 112×784 block, spread back over its columns. -/
def rowSumSpread (Y : FVec Ideal S112x784 .f32) : FVec Ideal S112x784 .f32 :=
  broadcastTo S112x784 (shapeCast S112x1 (multiReduction .add [1] S112 Y 0x00000000#32 reduces_S112x784_S112 (.inl rfl) rfl)
    shapeCasts_S112_S112x1) broadcasts_S112x1_S112x784

theorem rowSumSpread_apply (Y : FVec Ideal S112x784 .f32) (r : Fin 112) (c : Fin 784) :
    rowSumSpread Y (ix2 r c) = ∑ l : Fin 784, Y (ix2 r l) := by
  unfold rowSumSpread
  refine (bcast_a1_ab _ _ r c).trans ?_
  refine (cast_a_a1 _ _ r (0 : Fin 1)).trans ?_
  refine (Ideal.multiReduction_add_single _ _ _ _ _ (ix1 r)).trans ?_
  exact Finset.sum_congr rfl fun l _ => congrArg Y (lift_row reduces_S112x784_S112 r l)

/-- A loaded 1×1×112×784 head slice viewed as 112×784 reads (0, 0, r, c) at (r, c). -/
theorem cast_head (v : Vec Ideal S1x1x112x784 .f32) (r : Fin 112) (c : Fin 784) :
    shapeCast S112x784 v shapeCasts_S1x1x112x784_S112x784 (ix2 r c) = v (ix4 (0 : Fin 1) (0 : Fin 1) r c) :=
  shapeCast_apply v _ _ _ (by
    rw [Shape.rowMajor_val_four, Shape.rowMajor_val_two]
    show ((0 * 1 + 0) * 112 + r.val) * 784 + c.val = r.val * 784 + c.val
    omega)

/-- The trip's payload: the carried block plus the head times its spread row sums. -/
theorem pay2_eq (acc : FVec Ideal S112x784 .f32) (v : Vec Ideal S1x1x112x784 .f32) :
    k0_pay2 (F := Ideal) acc v
      = addf acc (mulf (shapeCast S112x784 v shapeCasts_S1x1x112x784_S112x784)
          (rowSumSpread (shapeCast S112x784 v shapeCasts_S1x1x112x784_S112x784))) := rfl

theorem pay2_apply (acc : FVec Ideal S112x784 .f32) (v : Vec Ideal S1x1x112x784 .f32) (r : Fin 112) (c : Fin 784) :
    k0_pay2 (F := Ideal) acc v (ix2 r c)
      = acc (ix2 r c) + v (ix4 (0 : Fin 1) (0 : Fin 1) r c) * ∑ l : Fin 784, v (ix4 (0 : Fin 1) (0 : Fin 1) r l) := by
  rw [pay2_eq]
  show acc (ix2 r c) + shapeCast S112x784 v shapeCasts_S1x1x112x784_S112x784 (ix2 r c)
      * rowSumSpread (shapeCast S112x784 v shapeCasts_S1x1x112x784_S112x784) (ix2 r c) = _
  rw [rowSumSpread_apply, cast_head]
  exact congrArg (fun s => acc (ix2 r c) + v (ix4 (0 : Fin 1) (0 : Fin 1) r c) * s)
    (Finset.sum_congr rfl fun l _ => cast_head v r l)

/-- What trip `k` yields from the carried block: the payload over the head it loads. -/
theorem trip_eq {F : FTy → Type} [FloatOps F] (𝒱 : Variants) (c : Dev nD) (bd : Option 𝒱.V) (i : grid0.Coords)
    (arg2 : Memref sig .tc .vmem S1x12x112x784 .f32) (harg2 : arg2.IsWhole) (arg3 : Memref sig .tc .vmem S1x784x784 .f32) (harg3 : arg3.IsWhole)
    (arg4 : Memref sig .tc .vmem S784x784 .f32) (harg4 : arg4.IsWhole) (X : BufTy.Contents (Elt F) arg2.view.ty)
    (k : Fin k0_t1_loop.trips) (acc : FVec F S112x784 .f32) :
    tripR_k0_t1 (F := F) 𝒱 c bd i arg2 harg2 arg3 harg3 arg4 harg4 X k acc
      = k0_pay2 acc (View.readAt (Elt F) arg2.view
          (Rect.unit (s := S1x12x112x784) (k0_off1 k) S1x1x112x784.size (k0_off1_inb k)).toLoadRect X) := by
  unfold tripR_k0_t1 trip_k0_t1
  rfl

/-- The slice trip `k` loads from a buffer that reads `x0` is head `k` of `x0`. -/
theorem load_head (arg2 : Memref sig .tc .vmem S1x12x112x784 .f32) (harg2 : arg2.IsWhole) (x0 : Vec Ideal S1x12x112x784 .f32)
    (k : Fin k0_t1_loop.trips) (hk : k.val < 12) (r : Fin 112) (l : Fin 784) :
    View.readAt (Elt Ideal) arg2.view
        (Rect.unit (s := S1x12x112x784) (k0_off1 k) S1x1x112x784.size (k0_off1_inb k)).toLoadRect (harg2.unread x0)
        (ix4 (0 : Fin 1) (0 : Fin 1) r l)
      = x0 (ix4 (0 : Fin 1) (⟨k.val, hk⟩ : Fin 12) r l) := by
  rw [View.readAt_eq_ld, harg2.read_unread]
  refine congrArg x0 (funext fun a => Fin.ext ?_)
  have e := k0_off1_eq k
  match a with
  | ⟨0, _⟩ => show k0_off1 k 0 + 1 * 0 = 0; rw [e]; rfl
  | ⟨1, _⟩ => show k0_off1 k 1 + 1 * 0 = k.val; rw [e]; rfl
  | ⟨2, _⟩ => show k0_off1 k 2 + 1 * r.val = r.val; rw [e]; show 0 + 1 * r.val = r.val; omega
  | ⟨3, _⟩ => show k0_off1 k 3 + 1 * l.val = l.val; rw [e]; show 0 + 1 * l.val = l.val; omega

/-! ## The twelve trips -/

/-- Head `h`'s term at (r, c): the entry times its row's sum (zero past the twelfth head, never reached). -/
def headTerm (x0 : Vec Ideal S1x12x112x784 .f32) (r : Fin 112) (c : Fin 784) (h : ℕ) : EReal :=
  if hh : h < 12 then
    x0 (ix4 (0 : Fin 1) (⟨h, hh⟩ : Fin 12) r c) * ∑ l : Fin 784, x0 (ix4 (0 : Fin 1) (⟨h, hh⟩ : Fin 12) r l)
  else 0

/-- The carried block before trip `k` is the sum of the first `k` heads' terms, accumulated from zero. -/
theorem carried_apply (c : Dev nD) (i : grid0.Coords)
    (arg2 : Memref sig .tc .vmem S1x12x112x784 .f32) (harg2 : arg2.IsWhole) (arg3 : Memref sig .tc .vmem S1x784x784 .f32) (harg3 : arg3.IsWhole)
    (arg4 : Memref sig .tc .vmem S784x784 .f32) (harg4 : arg4.IsWhole) (x0 : Vec Ideal S1x12x112x784 .f32) (r : Fin 112) (col : Fin 784) :
    ∀ k, k ≤ 12 →
      st_k0_t1 (F := Ideal) Variants.none c none i arg2 harg2 arg3 harg3 arg4 harg4 (harg2.unread x0) k0_pay1 k (ix2 r col)
        = accTo (headTerm x0 r col) k := by
  intro k
  induction k with
  | zero =>
    intro _
    show Ideal.ofBits .f32 0x00000000#32 = 0
    exact Ideal.ofBits_zero_f32
  | succ k ih =>
    intro hk
    have hlt : k < k0_t1_loop.trips := by rw [trips_eq]; omega
    have h12 : k < 12 := by omega
    refine (congrFun (st_k0_t1_succ (F := Ideal) Variants.none c none i arg2 harg2 arg3 harg3 arg4 harg4 (harg2.unread x0) k0_pay1 ⟨k, hlt⟩) (ix2 r col)).trans ?_
    rw [trip_eq, pay2_apply]
    show st_k0_t1 (F := Ideal) Variants.none c none i arg2 harg2 arg3 harg3 arg4 harg4 (harg2.unread x0) k0_pay1 k (ix2 r col) + _ = accTo (headTerm x0 r col) k + headTerm x0 r col k
    rw [ih (by omega), load_head arg2 harg2 x0 ⟨k, hlt⟩ h12 r col]
    unfold headTerm
    rw [dif_pos h12]
    exact congrArg (fun s => accTo (headTerm x0 r col) k + x0 (ix4 (0 : Fin 1) (⟨k, h12⟩ : Fin 12) r col) * s)
      (Finset.sum_congr rfl fun l _ => load_head arg2 harg2 x0 ⟨k, hlt⟩ h12 r l)

/-- THE HEAD SUM AT AN ENTRY: the sum over the twelve heads of the entry times its row's sum. -/
theorem headSum_apply (c : Dev nD) (i : grid0.Coords)
    (arg2 : Memref sig .tc .vmem S1x12x112x784 .f32) (harg2 : arg2.IsWhole) (arg3 : Memref sig .tc .vmem S1x784x784 .f32) (harg3 : arg3.IsWhole)
    (arg4 : Memref sig .tc .vmem S784x784 .f32) (harg4 : arg4.IsWhole) (x0 : Vec Ideal S1x12x112x784 .f32) (r : Fin 112) (col : Fin 784) :
    headSum (F := Ideal) c i arg2 harg2 arg3 harg3 arg4 harg4 x0 (ix2 r col)
      = ∑ h : Fin 12, x0 (ix4 (0 : Fin 1) h r col) * ∑ l : Fin 784, x0 (ix4 (0 : Fin 1) h r l) := by
  unfold headSum k0_pay3
  rw [shapeCast_self]
  refine (carried_apply c i arg2 harg2 arg3 harg3 arg4 harg4 x0 r col 12 le_rfl).trans ?_
  rw [accTo_eq_sum]
  refine Finset.sum_congr rfl fun h _ => ?_
  unfold headTerm
  rw [dif_pos h.isLt]

end Cert.KernelIdeal.HeadSum

end
-- ==== Proof.PlaneSpec.lean ====
/-
  What both programs compute, entry by entry, over the extended reals.

  From the argument A of shape [16, 12, 784, 784] the aggregate of batch b is the 784×784 plane whose entry (r, c) is
  the sum over the 12 heads h of A (b, h, r, c) times the sum over l of A (b, h, r, l). The result at (b, r, c) is the
  softmax of that plane taken as one flat run: exp (X (r, c) − M) / S, with M the plane's maximum (a fold of `max`
  from the value of the word of minus infinity, rows within the fold over rows) and S the sum over the rows of the
  row sums of the exponentials.
-/
import proofs.«141324_j5093831213743_2_alg».proof.Proof.LibRowLogSoftmax
import Idealize.ShloMosaic.Lib.ValueIdx
import Idealize.ShloMosaic.PureOps.Ideal.Laws

open scoped BigOperators

noncomputable section

namespace Cert.PlaneSpec

open Cert.LibRowLogSoftmax
open Idealize.ShloMosaic Idealize.ShloMosaic.ValueIdx

/-- The value of the word of minus infinity (never evaluated: a fold of `max` from it is compared through upper bounds). -/
abbrev ninf : EReal := Ideal.ofBits .f32 0xFF800000#32

/-- The plane's maximum: the fold over the rows of the rows' folds of `max`, from `ninf`. -/
def planeMax (X : (⟨2, ![784, 784]⟩ : Shape).Idx → EReal) : EReal :=
  (Finset.univ : Finset (Fin 784)).fold max ninf (fun r => rowMax ninf X r)

/-- The softmax over the whole plane. -/
def planeSoftmax (X : (⟨2, ![784, 784]⟩ : Shape).Idx → EReal) : (⟨2, ![784, 784]⟩ : Shape).Idx → EReal := fun i =>
  Ideal.div (Ideal.exp (X i - planeMax X)) (∑ r : Fin 784, ∑ c : Fin 784, Ideal.exp (X (ix2 r c) - planeMax X))

/-- Batch `b`'s aggregate plane. -/
def aggPlane (A : (⟨4, ![16, 12, 784, 784]⟩ : Shape).Idx → EReal) (b : Fin 16) : (⟨2, ![784, 784]⟩ : Shape).Idx → EReal :=
  fun y => ∑ h : Fin 12, A (ix4 b h (y 0) (y 1)) * ∑ l : Fin 784, A (ix4 b h (y 0) l)

/-- The result array. -/
def result (A : (⟨4, ![16, 12, 784, 784]⟩ : Shape).Idx → EReal) : (⟨3, ![16, 784, 784]⟩ : Shape).Idx → EReal :=
  fun i => planeSoftmax (aggPlane A (i 0)) (ix2 (i 1) (i 2))

end Cert.PlaneSpec

end
-- ==== Proof.IdealSoftmax.lean ====
/-
  The body's softmax of the whole scratch, read at an entry, over the extended reals.

  For a 784×784 plane X the body takes each row's maximum (a lane reduction from the word of minus infinity), views
  the 784 row maxima as a column, takes that column's maximum, and spreads the one value M over the plane; it
  exponentiates X − M entry by entry; sums each row of the exponentials, sums the column of row sums, spreads the
  total S over the plane; and divides. So the stored 1×784×784 block at (0, r, c) is exp (X (r, c) − M) / S, with M the
  fold of `max` over the rows of the rows' folds and S the sum over the rows of the row sums.
-/
import proofs.«141324_j5093831213743_2_alg».proof.Proof.Gen.KernelIdeal.Skeleton
import proofs.«141324_j5093831213743_2_alg».proof.Proof.LibRowLogSoftmax
import proofs.«141324_j5093831213743_2_alg».proof.Proof.PlaneSpec
import Idealize.ShloMosaic.Lib.ValueIdx
import Idealize.ShloMosaic.Lib.ValueLayout
import Idealize.ShloMosaic.Lib.Pipeline.Value
import Idealize.ShloMosaic.PureOps.Ideal.Laws

set_option maxRecDepth 65536

open scoped BigOperators

noncomputable section

namespace Cert.KernelIdeal.PlaneSoftmax

open Cert.KernelIdeal Cert.KernelIdeal.Gen Cert.LibRowLogSoftmax Cert.PlaneSpec
open Idealize.ShloMosaic Idealize.ShloMosaic.ValueIdx

/-! ## The layout steps -/

section Layout
variable {α : Type}

/-- A 1×1 array spread over the plane reads its one entry everywhere. -/
theorem spread11 (v : (⟨2, ![1, 1]⟩ : Shape).Idx → α) (h : (⟨2, ![1, 1]⟩ : Shape).Broadcasts ⟨2, ![784, 784]⟩)
    (r c : Fin 784) : broadcastTo ⟨2, ![784, 784]⟩ v h (ix2 r c) = v (ix2 (0 : Fin 1) (0 : Fin 1)) := by
  refine broadcastTo_apply v h (ix2 r c) (ix2 (0 : Fin 1) (0 : Fin 1)) fun ax => ?_
  match ax with
  | ⟨0, _⟩ => exact (if_pos rfl).symm
  | ⟨1, _⟩ => exact (if_pos rfl).symm

/-- Putting row `r` back into a column reduced over axis 0 gives the index `(r, 0)`. -/
theorem lift_col (h : (⟨2, ![784, 1]⟩ : Shape).Reduces [0] (⟨1, ![1]⟩ : Shape))
    (r : Fin ((⟨2, ![784, 1]⟩ : Shape).size 0)) :
    h.lift (ix1 (0 : Fin 1)) r = ix2 (⟨r.val, r.isLt⟩ : Fin 784) (0 : Fin 1) := by
  funext a; apply Fin.ext
  match a with
  | ⟨0, _⟩ => rfl
  | ⟨1, _⟩ => rfl

end Layout

/-! ## The two reductions over the whole plane, spread back -/

/-- The body's global maximum of `X`, spread over the plane. -/
def maxAll (X : FVec Ideal S784x784 .f32) : FVec Ideal S784x784 .f32 :=
  broadcastTo S784x784 (shapeCast S1x1 (multiReduction .maximumf [0] S1
    (shapeCast S784x1 (multiReduction .maximumf [1] S784 X 0xFF800000#32 reduces_S784x784_S784 (.inl rfl) rfl) shapeCasts_S784_S784x1)
    0xFF800000#32 reduces_S784x1_S1 (.inl rfl) rfl) shapeCasts_S1_S1x1) broadcasts_S1x1_S784x784

/-- The body's total of `E`, spread over the plane. -/
def sumAll (E : FVec Ideal S784x784 .f32) : FVec Ideal S784x784 .f32 :=
  broadcastTo S784x784 (shapeCast S1x1 (multiReduction .add [0] S1
    (shapeCast S784x1 (multiReduction .add [1] S784 E 0x00000000#32 reduces_S784x784_S784 (.inl rfl) rfl) shapeCasts_S784_S784x1)
    0x00000000#32 reduces_S784x1_S1 (.inl rfl) rfl) shapeCasts_S1_S1x1) broadcasts_S1x1_S784x784

/-- The maximum of a column of 784 entries, from `ninf`. -/
theorem colMax_apply (Y : FVec Ideal S784 .f32) :
    multiReduction .maximumf [0] S1 (shapeCast S784x1 Y shapeCasts_S784_S784x1) 0xFF800000#32 reduces_S784x1_S1 (.inl rfl) rfl
        (ix1 (0 : Fin 1))
      = (Finset.univ : Finset (Fin 784)).fold max ninf (fun r => Y (ix1 r)) := by
  refine (Ideal.multiReduction_maximumf_single _ _ _ _ _ _).trans ?_
  refine congrArg (fun f => Finset.fold max ninf f Finset.univ) (funext fun (r' : Fin 784) => ?_)
  refine (congrArg (shapeCast S784x1 Y shapeCasts_S784_S784x1) (lift_col reduces_S784x1_S1 r')).trans ?_
  exact cast_a_a1 Y _ _ _

/-- The sum of a column of 784 entries. -/
theorem colSum_apply (Y : FVec Ideal S784 .f32) :
    multiReduction .add [0] S1 (shapeCast S784x1 Y shapeCasts_S784_S784x1) 0x00000000#32 reduces_S784x1_S1 (.inl rfl) rfl
        (ix1 (0 : Fin 1))
      = ∑ r : Fin 784, Y (ix1 r) := by
  refine (Ideal.multiReduction_add_single _ _ _ _ _ _).trans ?_
  refine Finset.sum_congr rfl fun (r' : Fin 784) _ => ?_
  refine (congrArg (shapeCast S784x1 Y shapeCasts_S784_S784x1) (lift_col reduces_S784x1_S1 r')).trans ?_
  exact cast_a_a1 Y _ _ _

/-- A row's sum. -/
theorem rowSum_apply (E : FVec Ideal S784x784 .f32) (r : Fin 784) :
    multiReduction .add [1] S784 E 0x00000000#32 reduces_S784x784_S784 (.inl rfl) rfl (ix1 r) = ∑ c : Fin 784, E (ix2 r c) := by
  refine (Ideal.multiReduction_add_single _ _ _ _ _ _).trans ?_
  exact Finset.sum_congr rfl fun (c' : Fin 784) _ => congrArg E (lift_row reduces_S784x784_S784 r c')

/-- The spread maximum is the plane's maximum at every entry. -/
theorem maxAll_apply (X : FVec Ideal S784x784 .f32) (r c : Fin 784) : maxAll X (ix2 r c) = planeMax X := by
  unfold maxAll
  refine (spread11 _ _ r c).trans ?_
  refine (cast_a_a1 _ _ (0 : Fin 1) (0 : Fin 1)).trans ?_
  refine (colMax_apply _).trans ?_
  unfold planeMax
  exact congrArg (fun f => Finset.fold max ninf f Finset.univ) (funext fun (r' : Fin 784) => kernel_rowMax X _ _ _ r')

/-- The spread total is the sum over the rows of the row sums at every entry. -/
theorem sumAll_apply (E : FVec Ideal S784x784 .f32) (r c : Fin 784) :
    sumAll E (ix2 r c) = ∑ r' : Fin 784, ∑ c' : Fin 784, E (ix2 r' c') := by
  unfold sumAll
  refine (spread11 _ _ r c).trans ?_
  refine (cast_a_a1 _ _ (0 : Fin 1) (0 : Fin 1)).trans ?_
  refine (colSum_apply _).trans ?_
  exact Finset.sum_congr rfl fun (r' : Fin 784) _ => rowSum_apply E r'

/-! ## The payload -/

/-- The stored block is the cast of the quotient of the exponentials by their spread total. -/
theorem pay4_eq (X : Vec Ideal S784x784 .f32) :
    k0_pay4 (F := Ideal) X
      = shapeCast S1x784x784 (divf (exp (subf X (maxAll X))) (sumAll (exp (subf X (maxAll X))))) shapeCasts_S784x784_S1x784x784 := rfl

/-- THE STORED BLOCK AT AN ENTRY: the plane's softmax there. -/
theorem pay4_apply (X : Vec Ideal S784x784 .f32) (r c : Fin 784) :
    k0_pay4 (F := Ideal) X (ix3 (0 : Fin 1) r c) = planeSoftmax X (ix2 r c) := by
  rw [pay4_eq]
  refine (shapeCast_ab_1ab_apply _ _ (0 : Fin 1) r c).trans ?_
  show Ideal.div (Ideal.exp (X (ix2 r c) - maxAll X (ix2 r c))) (sumAll (exp (subf X (maxAll X))) (ix2 r c)) = _
  rw [maxAll_apply, sumAll_apply]
  unfold planeSoftmax
  refine congrArg (Ideal.div _) (Finset.sum_congr rfl fun r' _ => Finset.sum_congr rfl fun c' _ => ?_)
  show Ideal.exp (X (ix2 r' c') - maxAll X (ix2 r' c')) = _
  rw [maxAll_apply]

end Cert.KernelIdeal.PlaneSoftmax

end
-- ==== Proof.IdealFinal.lean ====
/-
  The kernel's output array after the run, over the extended reals: the specification's result of the argument.

  Point t = 7·b + n stages rows [112·n, 112·n + 112) of all twelve heads of batch b, so the rows it adds to the scratch
  are rows [112·n, 112·n + 112) of batch b's aggregate plane, and after the seventh block the scratch is the whole plane.
  The output window is written back exactly at those seventh blocks, block b of the array, holding the plane's
  softmax; the sixteen blocks tile the array.
-/
import proofs.«141324_j5093831213743_2_alg».proof.Proof.IdealGrid
import proofs.«141324_j5093831213743_2_alg».proof.Proof.IdealHeadSum
import proofs.«141324_j5093831213743_2_alg».proof.Proof.IdealSoftmax
import proofs.«141324_j5093831213743_2_alg».proof.Proof.PlaneSpec
import Idealize.ShloMosaic.Lib.Pipeline.Value
import Idealize.ShloMosaic.Lib.ValueIdx

set_option maxRecDepth 65536

open scoped BigOperators

noncomputable section

namespace Cert.KernelIdeal.Final

open Cert.KernelIdeal Cert.KernelIdeal.Gen Cert.KernelIdeal.Body Cert.KernelIdeal.HeadSum Cert.KernelIdeal.PlaneSoftmax Cert.PlaneSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The windows' block indices over the grid: the input's block is (batch, 0, row block, 0), the output's (batch, 0, 0). -/
theorem idx_facts : ∀ t : Fin cfg0.N, win0_0.index t (0 : Fin 4) = t.val / 7 ∧ win0_0.index t (1 : Fin 4) = 0
    ∧ win0_0.index t (2 : Fin 4) = t.val % 7 ∧ win0_0.index t (3 : Fin 4) = 0
    ∧ win0_1.index t (0 : Fin 3) = t.val / 7 ∧ win0_1.index t (1 : Fin 3) = 0 ∧ win0_1.index t (2 : Fin 3) = 0 :=
  (by decide +kernel : ∀ t : Fin grid0.N, _)

theorem N_eq : cfg0.N = 112 := N_0

/-- The staged input block at point `t`: head `h`, its row `r`, is row `112·(t mod 7) + r` of head `h` of batch `t / 7`. -/
theorem iblk_apply (c : Dev nD) (t : Fin cfg0.N) (h : Fin 12) (r : Fin 112) (l : Fin 784) (b : Fin 16) (R : Fin 784)
    (hb : b.val = t.val / 7) (hR : R.val = 112 * (t.val % 7) + r.val) :
    iblk m c 0 t (ix4 (0 : Fin 1) h r l) = V m c main_arg0 (ix4 b h R l) := by
  show V m c main_arg0 (((cfg0.win 0).blk t).view.emb (ix4 (0 : Fin 1) h r l)) = V m c main_arg0 (ix4 b h R l)
  refine congrArg (V m c main_arg0) (funext fun a => Fin.ext ?_)
  obtain ⟨e0, e1, e2, e3, -, -, -⟩ := idx_facts t
  match a with
  | ⟨0, _⟩ => show win0_0.index t (0 : Fin 4) * 1 + 1 * 0 = b.val; omega
  | ⟨1, _⟩ => show win0_0.index t (1 : Fin 4) * 12 + 1 * h.val = h.val; omega
  | ⟨2, _⟩ => show win0_0.index t (2 : Fin 4) * 112 + 1 * r.val = R.val; omega
  | ⟨3, _⟩ => show win0_0.index t (3 : Fin 4) * 784 + 1 * l.val = l.val; omega

/-- The rows point `t` computes are rows of its batch's aggregate plane. -/
theorem rowBlock_apply (c : Dev nD) (t : Fin cfg0.N) (r : Fin 112) (col : Fin 784) (b : Fin 16) (R : Fin 784)
    (hb : b.val = t.val / 7) (hR : R.val = 112 * (t.val % 7) + r.val) :
    rowBlock m c t (ix2 r col) = aggPlane (V m c main_arg0) b (ix2 R col) := by
  unfold rowBlock
  rw [headSum_apply]
  unfold aggPlane
  refine Finset.sum_congr rfl fun h _ => ?_
  rw [iblk_apply m c t h r col b R hb hR]
  congr 1
  exact Finset.sum_congr rfl fun l _ => iblk_apply m c t h r l b R hb hR

/-- The scratch after a batch's seven points is the batch's aggregate plane. -/
theorem filled_apply (c : Dev nD) (b : Fin 16) (y : S784x784.Idx) :
    filled m c b.val y = aggPlane (V m c main_arg0) b y := by
  obtain ⟨R, col, rfl⟩ : ∃ (R col : Fin 784), y = ix2 R col := ⟨y 0, y 1, eq_ix2 y⟩
  have hn : 7 * b.val + R.val / 112 < cfg0.N := by rw [N_eq]; have := b.isLt; have := R.isLt; omega
  show rowBlockAt m c (7 * b.val + R.val / 112) (ix2 (⟨R.val % 112, Nat.mod_lt _ (by norm_num)⟩ : Fin 112) col) = _
  unfold rowBlockAt
  rw [dif_pos hn]
  exact rowBlock_apply m c ⟨7 * b.val + R.val / 112, hn⟩ _ col b R
    (by show b.val = (7 * b.val + R.val / 112) / 7; have := R.isLt; omega)
    (by show R.val = 112 * ((7 * b.val + R.val / 112) % 7) + R.val % 112; have := R.isLt; omega)

/-- An index of the output array is in point `t`'s block iff each coordinate is in the block's range on its axis. -/
theorem mem_blk (t : Fin cfg0.N) (i : S16x784x784.Idx) :
    i ∈ ((cfg0.win 1).blk t).view.set ↔ ∀ a : Fin 3, win0_1.index t a * S1x784x784.size a ≤ (i a).val
      ∧ (i a).val < win0_1.index t a * S1x784x784.size a + S1x784x784.size a := by
  show i ∈ ((View.whole main_v0).slice (win0_1.rect t)).set ↔ _
  rw [View.set_slice_whole, Rect.mem_set_unit]
  exact Iff.rfl

/-- WHAT A SEVENTH BLOCK WRITES BACK is block `t / 7` of the specification's result. -/
theorem flushed_eq (c : Dev nD) (t : Fin cfg0.N) (hf : (cfg0.win 1).flush t = true) :
    (dats m 0 c).flushed 1 t = ((cfg0.win 1).blk t).view.read (Elt Ideal) (result (V m c main_arg0)) := by
  have hlt : t.val / 7 < 16 := by have h1 := t.isLt; have h2 : cfg0.N = 112 := N_eq; omega
  show (cfg0.win 1).cut (grid0.coords t) ((dats m 0 c).after 1 t) = _
  rw [after_out]
  funext j
  obtain ⟨u, r, col, rfl⟩ : ∃ (u : Fin 1) (r col : Fin 784), j = ix3 u r col := ⟨j 0, j 1, j 2, eq_ix3 j⟩
  obtain rfl : u = 0 := Subsingleton.elim _ _
  show k0_pay4 (F := Ideal) (filled m c (t.val / 7)) (ix3 (0 : Fin 1) r col)
    = result (V m c main_arg0) (((cfg0.win 1).blk t).view.emb (ix3 (0 : Fin 1) r col))
  rw [pay4_apply]
  have e : ((cfg0.win 1).blk t).view.emb (ix3 (0 : Fin 1) r col) = ix3 (⟨t.val / 7, hlt⟩ : Fin 16) r col :=
    funext fun a => Fin.ext (by
      obtain ⟨-, -, -, -, e4, e5, e6⟩ := idx_facts t
      match a with
      | ⟨0, _⟩ => show win0_1.index t (0 : Fin 3) * 1 + 1 * 0 = t.val / 7; omega
      | ⟨1, _⟩ => show win0_1.index t (1 : Fin 3) * 784 + 1 * r.val = r.val; omega
      | ⟨2, _⟩ => show win0_1.index t (2 : Fin 3) * 784 + 1 * col.val = col.val; omega)
  rw [e]
  show planeSoftmax (filled m c (t.val / 7)) (ix2 r col) = planeSoftmax (aggPlane (V m c main_arg0) (⟨t.val / 7, hlt⟩ : Fin 16)) (ix2 r col)
  exact congrArg (fun X => planeSoftmax X (ix2 r col)) (funext fun y => filled_apply m c (⟨t.val / 7, hlt⟩ : Fin 16) y)

/-- Every index of the output array is in the block its batch's seventh point writes back. -/
theorem cover (i : S16x784x784.Idx) :
    ∃ t : Fin cfg0.N, (cfg0.win 1).flush t = true ∧ i ∈ ((cfg0.win 1).blk t).view.set := by
  have h0 : (i 0).val < 16 := (i 0).isLt
  have h1 : (i 1).val < 784 := (i 1).isLt
  have h2 : (i 2).val < 784 := (i 2).isLt
  have hn : 7 * (i 0).val + 6 < cfg0.N := by rw [N_eq]; omega
  refine ⟨⟨7 * (i 0).val + 6, hn⟩, (flush0_1 _).mpr (by show (7 * (i 0).val + 6) % 7 = 6; omega), ?_⟩
  rw [mem_blk]
  obtain ⟨-, -, -, -, e4, e5, e6⟩ := idx_facts ⟨7 * (i 0).val + 6, hn⟩
  have e4' : win0_1.index ⟨7 * (i 0).val + 6, hn⟩ (0 : Fin 3) = (i 0).val := by rw [e4]; show (7 * (i 0).val + 6) / 7 = (i 0).val; omega
  intro a
  match a with
  | ⟨0, _⟩ => show win0_1.index ⟨7 * (i 0).val + 6, hn⟩ (0 : Fin 3) * 1 ≤ (i 0).val ∧ (i 0).val < win0_1.index ⟨7 * (i 0).val + 6, hn⟩ (0 : Fin 3) * 1 + 1; omega
  | ⟨1, _⟩ => show win0_1.index ⟨7 * (i 0).val + 6, hn⟩ (1 : Fin 3) * 784 ≤ (i 1).val ∧ (i 1).val < win0_1.index ⟨7 * (i 0).val + 6, hn⟩ (1 : Fin 3) * 784 + 784; omega
  | ⟨2, _⟩ => show win0_1.index ⟨7 * (i 0).val + 6, hn⟩ (2 : Fin 3) * 784 ≤ (i 2).val ∧ (i 2).val < win0_1.index ⟨7 * (i 0).val + 6, hn⟩ (2 : Fin 3) * 784 + 784; omega

/-- THE OUTPUT ARRAY after the run is the specification's result of the argument array as launched. -/
theorem final (c : Dev nD) : (dats m 0 c).arrAt 1 cfg0.N = result (V m c main_arg0) :=
  (dats m 0 c).arrAt_eq_of_cover 1 (result (V m c main_arg0)) (fun t hf => flushed_eq m c t hf) cover

/-- The run, read: every weakly fair execution terminates with the result array at the specification's result of the
    argument and the argument unchanged. -/
theorem run : θ_run defs (onTc (τ := τ) (main (F := Ideal))) ⟨m, fun _ => 0, ρ⟩ fun r => ∀ c : Dev nD,
      r.2.mem ((c.tc : Thread nD τ).loc main_v0) = result (m ((c.tc : Thread nD τ).loc main_arg0))
      ∧ r.2.mem ((c.tc : Thread nD τ).loc main_arg0) = m ((c.tc : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Final

end
-- ==== Proof.RefPlane.lean ====
/-
  The reference computes the specification: its stages read at an index, composed.

  The host program sums each row of each head, multiplies, sums over the heads, flattens each batch's plane to one
  run of 784·784 entries, takes the run's maximum (and once more the maximum with minus infinity, which changes
  nothing), subtracts, exponentiates, sums the run, divides, and restores the plane's shape. Flat position q is row
  q / 784, column q % 784, so the run's maximum and sum are the plane's, rows within rows.
-/
import proofs.«141324_j5093831213743_2_alg».proof.Proof.Gen.ReferenceIdeal.Read
import proofs.«141324_j5093831213743_2_alg».proof.Proof.PlaneSpec
import proofs.«141324_j5093831213743_2_alg».proof.Proof.LibFlatPlane
import Idealize.ShloMosaic.Lib.ValueIdx
import Idealize.ShloMosaic.PureOps.Ideal.Laws

set_option maxRecDepth 65536

open scoped BigOperators

noncomputable section

namespace Cert.RefPlane

open Cert.ReferenceIdeal Cert.ReferenceIdeal.Gen Cert.ReferenceIdeal.Read Cert.PlaneSpec Cert.LibFlatPlane Cert.LibRowLogSoftmax
open Idealize.ShloMosaic Idealize.ShloMosaic.ValueIdx

/-- The argument array's contents at the ideal instance. -/
abbrev Arg := (⟨S16x12x784x784, .f32⟩ : BufTy).Contents (Elt Ideal)

/-- The row and the column of a flat position. -/
def rowOf (q : Fin 614656) : Fin 784 := ⟨q.val / 784, by have := q.isLt; omega⟩
def colOf (q : Fin 614656) : Fin 784 := ⟨q.val % 784, by omega⟩

theorem rowOf_val (q : Fin 614656) : (rowOf q).val = q.val / 784 := rfl
theorem colOf_val (q : Fin 614656) : (colOf q).val = q.val % 784 := rfl

/-- A head's row sum, placed and spread: at (b, h, r, c) the sum of row r of head h of batch b. -/
theorem rowsum_apply (A : Arg) (b : Fin 16) (h : Fin 12) (r c : Fin 784) :
    val_main_v2 (F := Ideal) A (ix4 b h r c) = ∑ l : Fin 784, A (ix4 b h r l) := by
  rw [val_main_v2_apply, val_main_v1_apply, val_main_v0_apply]
  show Ideal.ofBits .f32 0x00000000#32 + _ = _
  rw [Ideal.ofBits_zero_f32, zero_add]
  refine Finset.sum_congr rfl fun l _ => congrArg A (funext fun a => Fin.ext ?_)
  match a with
  | ⟨0, _⟩ => rfl
  | ⟨1, _⟩ => rfl
  | ⟨2, _⟩ => rfl
  | ⟨3, _⟩ => rfl

/-- The sum over the heads is the aggregate plane. -/
theorem agg_apply (A : Arg) (b : Fin 16) (r c : Fin 784) :
    val_main_v4 (F := Ideal) A (ix3 b r c) = aggPlane A b (ix2 r c) := by
  rw [val_main_v4_apply]
  show Ideal.ofBits .f32 0x00000000#32 + _ = _
  rw [Ideal.ofBits_zero_f32, zero_add]
  unfold aggPlane
  refine Finset.sum_congr rfl fun h _ => ?_
  have e : idx_main_v4 (ix3 b r c) h = ix4 b h r c := funext fun a => Fin.ext (by
    match a with
    | ⟨0, _⟩ => rfl
    | ⟨1, _⟩ => rfl
    | ⟨2, _⟩ => rfl
    | ⟨3, _⟩ => rfl)
  rw [e, val_main_v3_apply, rowsum_apply]
  rfl

/-- The flattened plane at position q is the plane at (q / 784, q % 784). -/
theorem flat_apply (A : Arg) (b : Fin 16) (q : Fin 614656) :
    val_main_v5 (F := Ideal) A (ix2 b q) = aggPlane A b (ix2 (rowOf q) (colOf q)) := by
  rw [val_main_v5_apply]
  have e : idx_main_v5 (ix2 b q) = ix3 b (rowOf q) (colOf q) := funext fun a => Fin.ext (by
    have hb := b.isLt; have hq := q.isLt
    match a with
    | ⟨0, _⟩ => show (b.val * 614656 + q.val) / 614656 = b.val; omega
    | ⟨1, _⟩ => show (b.val * 614656 + q.val) / 784 % 784 = q.val / 784; omega
    | ⟨2, _⟩ => show (b.val * 614656 + q.val) % 784 = q.val % 784; omega)
  rw [e, agg_apply]

/-- The run's maximum is the plane's. -/
theorem max_apply (A : Arg) (b : Fin 16) : val_main_v6 (F := Ideal) A (ix1 b) = planeMax (aggPlane A b) := by
  unfold val_main_v6
  have hred : S16x614656.Reduces [1] S16 := by decide
  refine (Host.reduce_eq_fold_single FloatOps.maximumf _ _ reducesTo_S16x614656_S16_d1 hred h_S_ (ix1 b)).trans ?_
  show (Finset.univ : Finset (Fin 614656)).fold max ninf (fun q => val_main_v5 (F := Ideal) A (hred.lift (ix1 b) q)) = _
  have e : ∀ q : Fin 614656, val_main_v5 (F := Ideal) A (hred.lift (ix1 b) q) = aggPlane A b (ix2 (rowOf q) (colOf q)) := fun q => by
    rw [lift_row hred b q]; exact flat_apply A b q
  rw [show (fun q => val_main_v5 (F := Ideal) A (hred.lift (ix1 b) q)) = fun q => aggPlane A b (ix2 (rowOf q) (colOf q)) from funext e]
  exact fold_max_flat (n := 784) (k := 784) (by norm_num) (by norm_num) ninf (fun r c => aggPlane A b (ix2 r c)) rowOf colOf rowOf_val colOf_val

/-- One more maximum with minus infinity changes nothing; spread, it is the plane's maximum at every position. -/
theorem maxSpread_apply (A : Arg) (b : Fin 16) (q : Fin 614656) :
    val_main_v10 (F := Ideal) A (ix2 b q) = planeMax (aggPlane A b) := by
  rw [val_main_v10_apply, val_main_v9_apply]
  have e : idx_main_v9 (idx_main_v10 (ix2 b q)) = ix1 b := funext fun a => Fin.ext (by
    match a with
    | ⟨0, _⟩ => rfl)
  rw [e, val_main_v8_apply, max_apply, val_main_v7_apply]
  show max ninf (planeMax (aggPlane A b)) = _
  exact max_eq_right ((Finset.le_fold_max ninf).mpr (Or.inl le_rfl))

/-- The exponentials. -/
theorem exp_flat_apply (A : Arg) (b : Fin 16) (q : Fin 614656) :
    val_main_v12 (F := Ideal) A (ix2 b q)
      = Ideal.exp (aggPlane A b (ix2 (rowOf q) (colOf q)) - planeMax (aggPlane A b)) := by
  rw [val_main_v12_apply, val_main_v11_apply, flat_apply, maxSpread_apply]
  rfl

/-- The run's sum of exponentials is the sum over the rows of the row sums; spread, at every position. -/
theorem sumSpread_apply (A : Arg) (b : Fin 16) (q : Fin 614656) :
    val_main_v15 (F := Ideal) A (ix2 b q)
      = ∑ r : Fin 784, ∑ c : Fin 784, Ideal.exp (aggPlane A b (ix2 r c) - planeMax (aggPlane A b)) := by
  rw [val_main_v15_apply, val_main_v14_apply]
  have e : idx_main_v14 (idx_main_v15 (ix2 b q)) = ix1 b := funext fun a => Fin.ext (by
    match a with
    | ⟨0, _⟩ => rfl)
  rw [e, val_main_v13_apply]
  show Ideal.ofBits .f32 0x00000000#32 + _ = _
  rw [Ideal.ofBits_zero_f32, zero_add]
  have e2 : ∀ q' : Fin 614656, val_main_v12 (F := Ideal) A (idx_main_v13 (ix1 b) q')
      = Ideal.exp (aggPlane A b (ix2 (rowOf q') (colOf q')) - planeMax (aggPlane A b)) := fun q' => by
    have e3 : idx_main_v13 (ix1 b) q' = ix2 b q' := funext fun a => Fin.ext (by
      match a with
      | ⟨0, _⟩ => rfl
      | ⟨1, _⟩ => rfl)
    rw [e3, exp_flat_apply]
  rw [Finset.sum_congr rfl fun q' _ => e2 q']
  exact sum_flat (n := 784) (k := 784) (by norm_num) (by norm_num)
    (fun r c => Ideal.exp (aggPlane A b (ix2 r c) - planeMax (aggPlane A b))) rowOf colOf rowOf_val colOf_val

/-- THE REFERENCE'S RESULT is the specification's, entry by entry. -/
theorem result_apply (A : Arg) (b : Fin 16) (r c : Fin 784) :
    val_main_v17 (F := Ideal) A (ix3 b r c) = result A (ix3 b r c) := by
  rw [val_main_v17_apply]
  have hlt : 784 * r.val + c.val < 614656 := by have := r.isLt; have := c.isLt; omega
  have e : idx_main_v17 (ix3 b r c) = ix2 b (⟨784 * r.val + c.val, hlt⟩ : Fin 614656) := funext fun a => Fin.ext (by
    have hb := b.isLt; have hr := r.isLt; have hc := c.isLt
    match a with
    | ⟨0, _⟩ => show ((b.val * 784 + r.val) * 784 + c.val) / 614656 = b.val; omega
    | ⟨1, _⟩ => show ((b.val * 784 + r.val) * 784 + c.val) % 614656 = 784 * r.val + c.val; omega)
  rw [e, val_main_v16_apply, exp_flat_apply, sumSpread_apply]
  have hr : rowOf (⟨784 * r.val + c.val, hlt⟩ : Fin 614656) = r := Fin.ext (by
    show (784 * r.val + c.val) / 784 = r.val; have := c.isLt; omega)
  have hc : colOf (⟨784 * r.val + c.val, hlt⟩ : Fin 614656) = c := Fin.ext (by
    show (784 * r.val + c.val) % 784 = c.val; have := c.isLt; omega)
  rw [hr, hc]
  rfl

/-- The same as functions. -/
theorem result_eq (A : Arg) : val_main_v17 (F := Ideal) A = result A := by
  funext i
  obtain ⟨b, r, c, rfl⟩ : ∃ (b : Fin 16) (r c : Fin 784), i = ix3 b r c := ⟨i 0, i 1, i 2, eq_ix3 i⟩
  exact result_apply A b r c

end Cert.RefPlane

end
-- ==== Proof.lean ====
/-
  The certificate: a fused aggregate-and-softmax kernel against its jnp reference, over the extended reals.

  The argument is A of shape [16, 12, 784, 784]. For each batch b both programs form the 784×784 aggregate plane
  X (r, c) = ∑ₕ A (b, h, r, c) · ∑ₗ A (b, h, r, l) and return its softmax taken over the whole plane,
  exp (X (r, c) − M) / S with M the plane's maximum and S the total of the exponentials.

  The kernel runs on a grid of 16 batches by 7 row blocks. Each point sums the twelve heads' products for its 112 rows in
  a counted loop and stores them into a 784×784 scratch that it keeps across the seven points of a batch; at the seventh
  it reads the whole scratch, takes the maximum as a maximum of row maxima and the total as a sum of row sums, and stores
  the quotient into the batch's output block, which is written back only there. The reference flattens the plane and
  takes one maximum and one sum over its 614656 entries. The two agree because a sum accumulated from zero is the finite
  sum, and a finite sum or maximum does not depend on how its terms are grouped; nothing is asked of the inputs beyond
  what the claims state, so the precondition is never opened.

  The frames of the kernel and of its idealization: the body's two cases (before and at the seventh block) are run on any
  staging memrefs, the scratch is tracked as contents that agree with the aggregate on the rows already stored, and the
  launch is the library's frame run with that invariant (Proof/BitsPoint, BitsGrid; Proof/IdealPoint, IdealGrid). The
  reference's frame is its run with the result dropped. The idealization rewrote no operation. The value: the head sum,
  the softmax payload and the scratch read at an index (Proof/IdealHeadSum, IdealSoftmax, IdealFinal), the reference's
  stages composed (Proof/RefPlane), both equal to one specification (Proof/PlaneSpec) through the regrouping lemmas
  (Proof/LibFlatPlane).
-/
import proofs.«141324_j5093831213743_2_alg».proof.Defs
import proofs.«141324_j5093831213743_2_alg».proof.Proof.Gen.Kernel
import proofs.«141324_j5093831213743_2_alg».proof.Proof.Gen.KernelIdeal
import proofs.«141324_j5093831213743_2_alg».proof.Proof.Gen.ReferenceIdeal
import proofs.«141324_j5093831213743_2_alg».proof.Proof.Gen.Pre_finite_inputs
import proofs.«141324_j5093831213743_2_alg».proof.Proof.Gen.ReferenceIdeal.Run
import proofs.«141324_j5093831213743_2_alg».proof.Proof.Gen.ReferenceIdeal.Read
import proofs.«141324_j5093831213743_2_alg».proof.Proof.BitsGrid
import proofs.«141324_j5093831213743_2_alg».proof.Proof.IdealFinal
import proofs.«141324_j5093831213743_2_alg».proof.Proof.RefPlane
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance the kernel's result array and the reference's are the specification's result of arguments
    that agree. -/
theorem algebraic : Cert.algebraic_KernelIdeal_ReferenceIdeal := by
  intro m ρ m' ρ' _ hagree
  refine ⟨fun c => Cert.PlaneSpec.result (m ((c.tc : Thread Cert.KernelIdeal.nD Cert.KernelIdeal.τ).loc Cert.KernelIdeal.main_arg0)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.RefPlane.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
